-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x131072 : Shape := ⟨2, ![2, 131072]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S2x131072 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S8x8x128 : Shape := ⟨3, ![8, 8, 128]⟩
abbrev S1024x256 : Shape := ⟨2, ![1024, 256]⟩
abbrev S1024x1024 : Shape := ⟨2, ![1024, 1024]⟩
abbrev S1x8x128 : Shape := ⟨3, ![1, 8, 128]⟩
abbrev S8x128 : Shape := ⟨2, ![8, 128]⟩
abbrev S256x1024 : Shape := ⟨2, ![256, 1024]⟩
abbrev S1x1024x1024 : Shape := ⟨3, ![1, 1024, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 60
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S_, .bf16⟩
  | .hbm, ⟨3, _⟩ => ⟨S8192x8192, .bf16⟩
  | .hbm, ⟨4, _⟩ => ⟨S1x131072, .i32⟩
  | .hbm, ⟨5, _⟩ => ⟨S131072, .i32⟩
  | .hbm, ⟨6, _⟩ => ⟨S1x131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1, .i32⟩
  | .hbm, ⟨24, _⟩ => ⟨S131072x2, .i32⟩
  | .hbm, ⟨25, _⟩ => ⟨S_, .bf16⟩
  | .hbm, ⟨26, _⟩ => ⟨S131072, .bf16⟩
  | .hbm, ⟨27, _⟩ => ⟨S8192x8192, .bf16⟩
  | .hbm, ⟨28, _⟩ => ⟨S1x131072, .i32⟩
  | .hbm, ⟨29, _⟩ => ⟨S131072, .i32⟩
  | .hbm, ⟨30, _⟩ => ⟨S1x131072, .i32⟩
  | .hbm, ⟨31, _⟩ => ⟨S131072, .i32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S_, .i32⟩
  | .hbm, ⟨40, _⟩ => ⟨S131072, .i32⟩
  | .hbm, ⟨41, _⟩ => ⟨S131072, .i1⟩
  | .hbm, ⟨42, _⟩ => ⟨S_, .i32⟩
  | .hbm, ⟨43, _⟩ => ⟨S131072, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S131072x1, .i32⟩
  | .hbm, ⟨48, _⟩ => ⟨S131072x2, .i32⟩
  | .hbm, ⟨49, _⟩ => ⟨S_, .bf16⟩
  | .hbm, ⟨50, _⟩ => ⟨S131072, .bf16⟩
  | .hbm, ⟨51, _⟩ => ⟨S8192x8192, .bf16⟩
  | .hbm, ⟨52, _⟩ => ⟨S8192x256, .bf16⟩
  | .hbm, ⟨53, _⟩ => ⟨S8x8x128, .f32⟩
  | .hbm, ⟨54, _⟩ => ⟨S8x1x1, .f32⟩
  | .hbm, ⟨55, _⟩ => ⟨S8, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_18 : BitVec 32 := 0#32
  let v51 : BitVec 1 := Scalar.cmpi .ne v50 c0_i32_18
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  scatter_S8192x8192_S131072x2_S131072_n_01_01_1_wf : ScatterDims.WF S8192x8192 S131072x2 S131072 [] [0, 1] [0, 1] 1
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v39) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S2x131072 : Shape := ⟨2, ![2, 131072]⟩
abbrev S_ : Shape := ⟨0, ![]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩
abbrev S256x8192 : Shape := ⟨2, ![256, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S_, .f32⟩
  | .hbm, ⟨3, _⟩ => ⟨S8192x8192, .f32⟩
  | .hbm, ⟨4, _⟩ => ⟨S1x131072, .i32⟩
  | .hbm, ⟨5, _⟩ => ⟨S131072, .i32⟩
  | .hbm, ⟨6, _⟩ => ⟨S1x131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1, .i32⟩
  | .hbm, ⟨24, _⟩ => ⟨S131072x2, .i32⟩
  | .hbm, ⟨25, _⟩ => ⟨S_, .f32⟩
  | .hbm, ⟨26, _⟩ => ⟨S131072, .f32⟩
  | .hbm, ⟨27, _⟩ => ⟨S8192x8192, .f32⟩
  | .hbm, ⟨28, _⟩ => ⟨S1x131072, .i32⟩
  | .hbm, ⟨29, _⟩ => ⟨S131072, .i32⟩
  | .hbm, ⟨30, _⟩ => ⟨S1x131072, .i32⟩
  | .hbm, ⟨31, _⟩ => ⟨S131072, .i32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S_, .i32⟩
  | .hbm, ⟨40, _⟩ => ⟨S131072, .i32⟩
  | .hbm, ⟨41, _⟩ => ⟨S131072, .i1⟩
  | .hbm, ⟨42, _⟩ => ⟨S_, .i32⟩
  | .hbm, ⟨43, _⟩ => ⟨S131072, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S131072x1, .i32⟩
  | .hbm, ⟨48, _⟩ => ⟨S131072x2, .i32⟩
  | .hbm, ⟨49, _⟩ => ⟨S_, .f32⟩
  | .hbm, ⟨50, _⟩ => ⟨S131072, .f32⟩
  | .hbm, ⟨51, _⟩ => ⟨S8192x8192, .f32⟩
  | .hbm, ⟨52, _⟩ => ⟨S256x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .i32⟩
  | .hbm, ⟨63, _⟩ => ⟨S8192x8192, .i32⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  transposes_S8192x256_S256x8192_1_0 : S8192x256.Transposes [1, 0] S256x8192
  reducesTo_S8192x8192_S_d0_1 : S8192x8192.ReducesTo [0, 1] S_
  h_S_ : 0 < S_.numel
  scatter_S8192x8192_S131072x2_S131072_n_01_01_1_wf : ScatterDims.WF S8192x8192 S131072x2 S131072 [] [0, 1] [0, 1] 1
  dot_S8192x256_S256x8192_S8192x8192_1_0_0_1_n_n_wf : DotDims.WF S8192x256 S256x8192 S8192x8192 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KI.Points.lean ====
/-
  The loss kernel's grid, point by point: an 8 × 8 grid walked row-major, point `t` at row `t / 8` and column
  `t % 8`. Each row of the grid reduces its eight tiles into one running sum kept in a scratch buffer: the sum is
  reset at the row's first column, every column adds its tile's total, and the row's last column copies the sum
  into the output block. This module fixes the vocabulary the rest of the frame proof is stated over — the
  buffers' contents when the region is entered (after the host operations that build the adjacency matrix and
  narrow the embedding), each window's block at a point, the two branch conditions in closed form, where the
  output window is idle, and that an input window's staging buffer holds its block at every point.
-/
import proofs.«157359_j10368051053022_1_alg».proof.Proof.Gen.KernelIdeal.Launch
import proofs.«157359_j10368051053022_1_alg».proof.Proof.Gen.KernelIdeal.Skeleton
import proofs.«157359_j10368051053022_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window
    that is not fetched at a point has not moved since the point before, and the body only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- "This is the row's first column": the running sum is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the row's last column": the running sum is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last column nothing is stored into the output block, -/
theorem idleAt0_3 : ∀ t : Fin cfg0.N, ¬cond0_1 (grid0.coords t) → cfg0.idle 3 (grid0.coords t) = true := by decide +kernel
/-- and it is not written back there; -/
theorem noFlush0_3 : ∀ t : Fin cfg0.N, ¬cond0_1 (grid0.coords t) → (cfg0.win 3).flush t = false := by decide +kernel
/-- at the last column it is stored. -/
theorem liveAt0_3 : ∀ t : Fin cfg0.N, cond0_1 (grid0.coords t) → cfg0.idle 3 (grid0.coords t) = false := by decide +kernel

/-! ## The staging memrefs at a point, and the scratch -/

abbrev VO0_3 : View sig .tc .vmem S1x8x128 .f32 := (Memref.whole cc0_stg3_0 : Memref sig .tc .vmem S1x8x128 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The scratch buffer that carries the row's running sum. -/
abbrev scM0_0 : Memref sig .tc .vmem S8x128 .f32 := Memref.whole cc0_scratch0
abbrev VS0_0 : View sig .tc .vmem S8x128 .f32 := scM0_0.view

/-- The scoped buffers that are no staging buffer are the scratch alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.Runs.lean ====
/-
  The loss kernel's body run once per control case. A grid point is in one of three cases: the row's first
  column (the running sum is reset, then the tile's total added), an interior column (the total added to what the
  column before left), and the row's last column (the total added, then the sum copied into the output block). In
  each case the body, started on whole staging buffers holding the three input blocks, terminates without fault,
  leaves the inputs as they were, and leaves in the scratch buffer (and, in the last case, in the output buffer)
  the pieces its stores wrote; the pieces are found by running the body symbolically.
-/
import proofs.«157359_j10368051053022_1_alg».proof.Proof.KI.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- First column: the scratch may hold anything; the output buffer is handed back untouched. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) :
    { LS0 : List (View.Piece (Elt F) S8x128 .f32) //
      ∀ (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, fun xi3 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Interior column: the scratch holds what the column before left; the output buffer is handed back untouched. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) :
    { LS0 : List (View.Piece (Elt F) S8x128 .f32) //
      ∀ (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, fun xi3 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Last column: the scratch holds what the column before left; the output buffer may hold anything and ends
    with the pieces the copy wrote. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) :
    Σ' (L3 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Frame.lean ====
/-
  What the scratch buffer and the output block hold after each grid point, the proof data of the pipeline, and the
  body obligation. The scratch after point `n` is defined by recursion on `n`: at a row's first column it is what
  the first-column run leaves (the reset sum plus the tile's total), elsewhere what the interior- or last-column
  run leaves when started on the scratch of point `n - 1`. The output block is stored only at a row's last column
  (and written back to the result array there); at the other points its staging buffer is handed back as found.
  The region invariant is the scratch at the previous point's contents (at anything before the first point).
-/
import proofs.«157359_j10368051053022_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) (y : S8x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S8x128.size (by sl_kernel_rfl) y

/-- The scratch after a first-column point. -/
def sout0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) : Vec F S8x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) (y : S8x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S8x128.size (by sl_kernel_rfl) y

/-- The scratch after an interior-column point. -/
def sout0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) (y : S1x8x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x8x128.size (by sl_kernel_rfl) y

/-- The output block after a last-column point. -/
def out0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) : Vec F S1x8x128 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) (y : S8x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8x128.size (by sl_kernel_rfl) y

/-- The scratch after a last-column point. -/
def sout0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The running sum, point by point -/

theorem not_c1_of_c0 (t : Fin cfg0.N) (h0 : t.val % 8 = 0) : ¬cond0_1 (grid0.coords t) := fun h => by
  have := (hcond0_1 t).mp h; omega
theorem not_c0_of (t : Fin cfg0.N) (h0 : ¬t.val % 8 = 0) : ¬cond0_0 (grid0.coords t) := fun h => h0 ((hcond0_0 t).mp h)
theorem not_c1_of (t : Fin cfg0.N) (h1 : ¬t.val % 8 = 7) : ¬cond0_1 (grid0.coords t) := fun h => h1 ((hcond0_1 t).mp h)

/-- The scratch buffer after the body at position `n`. -/
def accAt (c : Dev nD) : (n : ℕ) → n < cfg0.N → Vec F S8x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_c1_of_c0 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (not_c1_of_c0 ⟨n + 1, hn⟩ h0) (iblk m c 0 ⟨n + 1, hn⟩) (iblk m c 1 ⟨n + 1, hn⟩) (iblk m c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of ⟨n + 1, hn⟩ h0) ((hcond0_1 ⟨n + 1, hn⟩).mpr h1) (iblk m c 0 ⟨n + 1, hn⟩) (iblk m c 1 ⟨n + 1, hn⟩) (iblk m c 2 ⟨n + 1, hn⟩) (accAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of ⟨n + 1, hn⟩ h0) (not_c1_of ⟨n + 1, hn⟩ h1) (iblk m c 0 ⟨n + 1, hn⟩) (iblk m c 1 ⟨n + 1, hn⟩) (iblk m c 2 ⟨n + 1, hn⟩) (accAt c n (Nat.lt_of_succ_lt hn))

theorem accAt_A (c : Dev nD) (t : Fin cfg0.N) (h0 : t.val % 8 = 0) :
    accAt m c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (not_c1_of_c0 t h0) (iblk m c 0 t) (iblk m c 1 t) (iblk m c 2 t) := by
  obtain ⟨n, hn⟩ := t
  cases n with
  | zero => exact rfl
  | succ n => exact (dif_pos h0).trans rfl

theorem accAt_B (c : Dev nD) (t : Fin cfg0.N) (h0 : ¬t.val % 8 = 0) (h1 : ¬t.val % 8 = 7) :
    accAt m c t.val t.isLt = sout0_B c (grid0.coords t) (ms0_0 t) (hs0_0 t) (ms0_1 t) (hs0_1 t) (ms0_2 t) (hs0_2 t) (ms0_3 t) (hs0_3 t) scM0_0 (Memref.isWhole_whole _) (not_c0_of t h0) (not_c1_of t h1) (iblk m c 0 t) (iblk m c 1 t) (iblk m c 2 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 8 = 0) (h1 : t.val % 8 = 7) :
    accAt m c t.val t.isLt = sout0_C c (grid0.coords t) (ms0_0 t) (hs0_0 t) (ms0_1 t) (hs0_1 t) (ms0_2 t) (hs0_2 t) (ms0_3 t) (hs0_3 t) scM0_0 (Memref.isWhole_whole _) (not_c0_of t h0) ((hcond0_1 t).mpr h1) (iblk m c 0 t) (iblk m c 1 t) (iblk m c 2 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Contents nothing reads: the output block's staging buffer away from a row's last column. -/
def unread3 : Vec F S1x8x128 .f32 := VO0_3.read (Elt F) VO0_3.junk

/-- The output block's staging buffer after the body at point `t`: stored at a row's last column. -/
def outAt (c : Dev nD) (t : Fin cfg0.N) : Vec F S1x8x128 .f32 :=
  if h1 : t.val % 8 = 7 then
    out0_C c (grid0.coords t) (ms0_0 t) (hs0_0 t) (ms0_1 t) (hs0_1 t) (ms0_2 t) (hs0_2 t) (ms0_3 t) (hs0_3 t) scM0_0 (Memref.isWhole_whole _) (not_c0_of t (by omega)) ((hcond0_1 t).mpr h1) (iblk m c 0 t) (iblk m c 1 t) (iblk m c 2 t) (accAt m c (t.val - 1) (Nat.lt_of_le_of_lt (Nat.sub_le _ _) t.isLt))
  else unread3

/-- The invariant before position `n`: the scratch at anything before the first point, then at what the point
    before left. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl
theorem PhiS_succ (c : Dev nD) (n : ℕ) (hn : n < cfg0.N) :
    PhiS m c (n + 1) hn = owns (c : Thread nD τ) scM0_0 fullShare (accAt m c n hn) := rfl
theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The proof data -/

/-- The two windows on the embedding array hold half of it each; the adjacency window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 8 = 0
  · have hc1 : ¬cond0_1 (grid0.coords t) := not_c1_of_c0 t h0
    rw [Dat.leavesExact_idle (dats m 0 c) 3 t (idleAt0_3 t hc1) (noFlush0_3 t hc1)]
    rw [accAt_A m c t h0]
    unfold sout0_A; (try dsimp only)
    have hphi : (dats m 0 c).Φ t.castSucc ⊢ (iprop(∃ d, owns (c : Thread nD τ) scM0_0 fullShare d) : sProp 𝕄) := by
      rw [PhiS_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩⟩
    ihave HS0 := hphi $$ HS
    iapply ((kernelRun0_A c (grid0.coords t) _ _ _ _ _ _ _ _ _ _ ((hcond0_0 t).mpr h0) hc1 (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0]
    · unfold owns; iexists _; isplitr
      swap; · iexact HS0
      ipureintro; exact View.read_writes_of_cover _ _ _ _ _ (scover0_A c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [accAt_C m c t h0 h1]
      unfold outAt; rw [dif_pos h1]
      unfold out0_C sout0_C; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (not_c0_of t h0) hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := not_c1_of t h1
      rw [Dat.leavesExact_idle (dats m 0 c) 3 t (idleAt0_3 t hc1) (noFlush0_3 t hc1)]
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (not_c0_of t h0) hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _)
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the region is entered with — the scratch at anything — is the invariant before the first point. -/
theorem hin (c : Dev nD) : (iprop(∃ d, owns (c : Thread nD τ) scM0_0 fullShare d) : sProp 𝕄) ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ (iprop(∃ d, owns (c : Thread nD τ) scM0_0 fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega)]
  iintro H; iexists _; iexact H

end Cert.KernelIdeal.Hand

end
-- ==== Proof.KI.Launch.lean ====
/-
  The whole program's run. The program is a line of host operations (the adjacency matrix scattered from the edge
  list, the embedding narrowed), the kernel region, and a short line of host operations that sums the eight row
  totals and divides by the number of entries. Between these three items each core holds all its unscoped
  buffers whole: at the launch contents, then after the first line, then with the region's result array at what
  the pipeline wrote back, then after the last line. The embedding array is read by two windows of the region;
  on entry its buffer is split into two half shares, one per window, and on exit the halves are joined again —
  both windows only read it, so both halves still hold the entry contents. Every weakly fair execution
  terminates, and the final memory holds the two arguments as launched and the result at the last valuation.
-/
import proofs.«157359_j10368051053022_1_alg».proof.Proof.KI.Frame
import Idealize.ShloMosaic.Lib.Pipeline.Frame
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev Vl (c : Dev nD) : Valuation τ sig (Elt F) := fun b => m (c, b)
/-- After the region: the result array at what the pipeline wrote back, everything else as the region found it. -/
abbrev Vr (c : Dev nD) : Valuation τ sig (Elt F) := Function.update (V0 m c) main_v40 ((dats m 0 c).arrAt 3 cfg0.N)
/-- After the last line of host operations. -/
abbrev Ve (c : Dev nD) : Valuation τ sig (Elt F) := StableHlo.after hostOps1 (Vr m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The references the first line writes. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_v20, main_v21, main_v22, main_v23, main_c_4, main_v24, main_v25, main_c_5, main_v26, main_v27, main_v28, main_c_6, main_v29, main_v30, main_c_7, main_v31, main_v32, main_v33, main_v34, main_v35, main_v36, main_cst_8, main_v37, main_v38, main_v39]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- The references the last line writes. -/
abbrev hostOps1_W : List (Ref sig .tc) := [main_v41, main_v42, main_cst_9, main_v43, main_cst_10, main_v44]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))

theorem V0_of (c : Dev nD) (r : Ref sig .tc) (h : r ∉ hostOps0_W) : V0 m c r = Vl m c r :=
  StableHlo.after_of_writes_sub hostOps0 _ hostOps0_writes h
theorem Vr_of (c : Dev nD) (r : Ref sig .tc) (h : r ≠ main_v40) : Vr m c r = V0 m c r := by
  simp only [Vr, Function.update_of_ne (StableHlo.devRef_ne_of_ne h : (Proc.devRef .tc r : DevRef τ sig) ≠ Proc.devRef .tc main_v40)]
theorem Vr_v40 (c : Dev nD) : Vr m c main_v40 = (dats m 0 c).arrAt 3 cfg0.N := by
  simp only [Vr, Function.update_self]
theorem Ve_of (c : Dev nD) (r : Ref sig .tc) (h : r ∉ hostOps1_W) : Ve m c r = Vr m c r :=
  StableHlo.after_of_writes_sub hostOps1 _ hostOps1_writes h

/-- No item writes an argument. -/
theorem Ve_main_arg0 (c : Dev nD) : Ve m c main_arg0 = m ((c : Thread nD τ).loc main_arg0) :=
  (Ve_of m c main_arg0 (by decide)).trans <| (Vr_of m c main_arg0 (by decide)).trans <| (V0_of m c main_arg0 (by decide)).trans rfl
theorem Ve_main_arg1 (c : Dev nD) : Ve m c main_arg1 = m ((c : Thread nD τ).loc main_arg1) :=
  (Ve_of m c main_arg1 (by decide)).trans <| (Vr_of m c main_arg1 (by decide)).trans <| (V0_of m c main_arg1 (by decide)).trans rfl

/-! ## The region's arrays, one by one -/

/-- The three distinct buffers behind the four windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc (Pipeline.arrRef spec0 0)) ↦{fullShare} W (Pipeline.arrRef spec0 0)) ∗ (((c.tc : Thread nD τ).loc (Pipeline.arrRef spec0 2)) ↦{fullShare} W (Pipeline.arrRef spec0 2))
          ∗ (((c.tc : Thread nD τ).loc (Pipeline.arrRef spec0 3)) ↦{fullShare} W (Pipeline.arrRef spec0 3))) := by
  unfold Pipeline.arrBufs
  exact bigSep_eq_bigSepL_of_eq [Pipeline.arrRef spec0 0, Pipeline.arrRef spec0 2, Pipeline.arrRef spec0 3] (by decide) (by decide) _

/-- The pipeline's arrays: the embedding array in two halves, the adjacency and the result whole. -/
theorem arrays_eq4 (c : Dev nD) (G : (w : Fin cfg0.W) → Buf (Elt F) ((cfg0.win w).arr.view.loc (c.tc : Thread nD τ))) :
    ((dats m 0 c).arrays G : sProp 𝕄)
      = iprop((((c.tc : Thread nD τ).loc (Pipeline.arrRef spec0 0)) ↦{fullShare.left} G 0) ∗ (((c.tc : Thread nD τ).loc (Pipeline.arrRef spec0 0)) ↦{fullShare.right} G 1)
          ∗ (((c.tc : Thread nD τ).loc (Pipeline.arrRef spec0 2)) ↦{fullShare} G 2) ∗ (((c.tc : Thread nD τ).loc (Pipeline.arrRef spec0 3)) ↦{fullShare} G 3)) := by
  unfold Dat.arrays
  rw [bigSep_W0, (arr_whole0 0).set_eq_univ, (arr_whole0 2).set_eq_univ, (arr_whole0 3).set_eq_univ]
  rfl

/-- The arrays' contents when the region is entered are what the first line left; both windows on the embedding
    array find the same contents. -/
theorem arrAt0_0 (c : Dev nD) : (dats m 0 c).arrAt 0 0 = V m c (Pipeline.arrRef spec0 0) := A_eq m c 0
theorem arrAt0_1 (c : Dev nD) : (dats m 0 c).arrAt 1 0 = V m c (Pipeline.arrRef spec0 0) := A_eq m c 1
theorem arrAt0_2 (c : Dev nD) : (dats m 0 c).arrAt 2 0 = V m c (Pipeline.arrRef spec0 2) := A_eq m c 2
theorem arrAt0_3 (c : Dev nD) : (dats m 0 c).arrAt 3 0 = V m c (Pipeline.arrRef spec0 3) := A_eq m c 3
/-- The input arrays are never written. -/
theorem arrAtN_0 (c : Dev nD) : (dats m 0 c).arrAt 0 cfg0.N = V m c (Pipeline.arrRef spec0 0) := ((dats m 0 c).arrAt_in 0 rfl _).trans (A_eq m c 0)
theorem arrAtN_1 (c : Dev nD) : (dats m 0 c).arrAt 1 cfg0.N = V m c (Pipeline.arrRef spec0 0) := ((dats m 0 c).arrAt_in 1 rfl _).trans (A_eq m c 1)
theorem arrAtN_2 (c : Dev nD) : (dats m 0 c).arrAt 2 cfg0.N = V m c (Pipeline.arrRef spec0 2) := ((dats m 0 c).arrAt_in 2 rfl _).trans (A_eq m c 2)
theorem Vr_arr0 (c : Dev nD) : Vr m c (Pipeline.arrRef spec0 0) = V m c (Pipeline.arrRef spec0 0) := Vr_of m c _ (by decide)
theorem Vr_arr2 (c : Dev nD) : Vr m c (Pipeline.arrRef spec0 2) = V m c (Pipeline.arrRef spec0 2) := Vr_of m c _ (by decide)
theorem Vr_arr3 (c : Dev nD) : Vr m c (Pipeline.arrRef spec0 3) = (dats m 0 c).arrAt 3 cfg0.N := Vr_v40 m c

/-- The buffers that bypass the region are the same before and after it. -/
theorem rest_eq (c : Dev nD) :
    (Pipeline.unscopedRest (Ix := Unit) (Name := ℕ) (U := UR sig nD τ) (Lvl := ℕ) spec0 c (fun b => Vr m c b) : sProp 𝕄)
      = Pipeline.unscopedRest spec0 c (V m c) := by
  unfold Pipeline.unscopedRest
  refine bigSep_congr fun b hb => ?_
  dsimp only
  rw [Vr_of m c b (fun h => (Finset.mem_sdiff.mp hb).2 (Finset.mem_image.mpr ⟨3, Finset.mem_univ _, h ▸ rfl⟩))]

/-! ## The items as segments -/

abbrev adm : (p : Fin 1) → (pcfgs (F := F) p).Adm := fun p => (cfgs p).toPCfg_adm
abbrev Lz : GSem nD τ sig → Finset Unit := fun _ => ∅
abbrev lvz : GSem nD τ sig → Unit → ℕ := fun _ _ => 0
/-- What rides beside the buffers: the core owes nothing. -/
abbrev Rz (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) Rz

def seg2 : HostSeg (Ix := Unit) (Name := ℕ) (U := UR sig nD τ) (Lvl := ℕ) (pcfgs (F := F)) defs₀ Variants.none Lz lvz :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Vr m) Rz

set_option maxHeartbeats 4000000 in
set_option backward.isDefEq.respectTransparency.types false in
/-- The region: entered from every unscoped buffer held at the contents after the first line, left with the
    result array at what the pipeline wrote back. -/
def reg1 : RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (V0 m c) ∗ Rz c)
  post c := iprop(StableHlo.held (c : Thread nD τ) (Pipeline.ucRefs τ sig) (Vr m c) ∗ Rz c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c (V0 m c)).symm,
      Pipeline.unscopedBufs_split₀ cfgs 0 winFacts₀0.arr_unscoped c (V m c), arrBufs_eq, arrays_eq4, arrAt0_0, arrAt0_1, arrAt0_2, arrAt0_3]
    iintro ⟨⟨⟨⟨H39, H38, H40⟩, Hrest⟩, HO⟩, -, -⟩
    ihave H39' := (pointsTo_share (PosShare.mem_left_op_right fullShare)).1 $$ H39
    icases H39' with ⟨H39l, H39r⟩
    imodintro
    isplitl [H39l H39r H38 H40]
    · isplitl [H39l]; · iexact H39l
      isplitl [H39r]; · iexact H39r
      isplitl [H38]; · iexact H38
      iexact H40
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (hin m c)
    rw [← scopedRest0_owns]; iexact Hr
  hout c := by
    rw [Pipeline.ownSems0_none]
    iintro H
    ihave H' := (hout m c) $$ H
    isplitr; · iempintro
    isplitr; · iempintro
    rw [scopedRest0_owns]; iexact H'
  hexit c := by
    rw [show StableHlo.held (c : Thread nD τ) (Pipeline.ucRefs τ sig) (Vr m c) = unscopedBufs c (fun b => Vr m c b) from (Pipeline.unscopedBufs_held c (Vr m c)).symm,
      Pipeline.unscopedBufs_split₀ cfgs 0 winFacts₀0.arr_unscoped c (fun b => Vr m c b), arrBufs_eq, arrays_eq4, rest_eq,
      Vr_arr0, Vr_arr2, Vr_arr3, arrAtN_0, arrAtN_1, arrAtN_2]
    iintro ⟨⟨H39l, H39r, H38, H40⟩, HO, -, Hrest⟩
    imodintro
    isplitr [HO]
    · isplitr [Hrest]
      · isplitl [H39l H39r]
        · iapply (pointsTo_share (PosShare.mem_left_op_right fullShare)).2
          isplitl [H39l]; · iexact H39l
          iexact H39r
        isplitl [H38]; · iexact H38
        iexact H40
      iexact Hrest
    · unfold Pipeline.Dat.owesAt Pipeline.owesWithin
      icases HO with ⟨%W, -, HO⟩; iexists W; iexact HO

abbrev segs : List (Seg (pcfgs (F := F)) adm (dats m) () defs₀ Variants.none Lz lvz) :=
  [.host (seg0 m), .region (reg1 m), .host (seg2 m)]

/-- What the run establishes of the final memory: the result at the last valuation, the arguments as launched. -/
def QC : PUnit × MemSt nD τ sig (Elt F) → Prop := fun r =>
  ∀ c : Dev nD, r.2.mem ((c.tc : Thread nD τ).loc main_v44) = Ve m c main_v44
    ∧ r.2.mem ((c.tc : Thread nD τ).loc main_arg0) = m ((c.tc : Thread nD τ).loc main_arg0)
    ∧ r.2.mem ((c.tc : Thread nD τ).loc main_arg1) = m ((c.tc : Thread nD τ).loc main_arg1)

set_option maxHeartbeats 4000000 in
set_option backward.isDefEq.respectTransparency.types false in
/-- From any memory with zero counters every weakly fair execution of the program terminates without fault, in
    a memory with the result at the last valuation and both arguments unchanged. -/
theorem run_main : θ_run defs (onTc (τ := τ) (main (F := F))) ⟨m, fun _ => 0, ρ⟩ (QC m) := by
  refine Pipeline.θ_run_regions_kit (pcfgs (F := F)) adm (dats m) () cellOf_inj emb₁ defs₀ Variants.none Lz lvz m ρ main (segs m)
    (fun c Q => by
      rewrite [main_chain c, Seg.run_eq_chain,
        show (segs m).map Seg.prog = [
          StableHlo.seq hostOps0,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rz c))
    (Tₙ := fun c => StableHlo.held (c : Thread nD τ) (Pipeline.ucRefs τ sig) (Ve m c))
    (hch := ⟨fun _ => .rfl, fun _ => .rfl, fun _ => .rfl, fun _ => .rfl⟩)
    (hinit := ?_) (QY := fun c s => s.mem ((c.tc : Thread nD τ).loc main_v44) = Ve m c main_v44
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (Vl m c) from Pipeline.unscopedBufs_held c (Vl m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Ve m c) s') $$ [Hh HSI]
    · isplitl [Hh] <;> iassumption
    icases Hr with ⟨%h, HSI⟩
    imodintro
    isplitr
    · ipureintro
      exact ⟨h (Proc.devRef .tc main_v44) (Finset.mem_filter.mpr ⟨StableHlo.devRef_mem_tcRefs main_v44, by decide⟩),
        (h (Proc.devRef .tc main_arg0) (Finset.mem_filter.mpr ⟨StableHlo.devRef_mem_tcRefs main_arg0, by decide⟩)).trans (Ve_main_arg0 m c),
        (h (Proc.devRef .tc main_arg1) (Finset.mem_filter.mpr ⟨StableHlo.devRef_mem_tcRefs main_arg1, by decide⟩)).trans (Ve_main_arg1 m c)⟩
    · iexact HSI

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Value.lean ====
/-
  The kernel's result array as a value. Each control case's stores are read back as the body's arithmetic: the
  scratch after a point is the tile's total added to what the scratch held (to the zero block at a row's first
  column), and the output block stored at a row's last column is that scratch seen as a one-row block. Row `r` of the
  result array is written back exactly once, after the row's last column, so the array ends holding, in row `r`,
  the running sum after point `8 r + 7`.
-/
import proofs.«157359_j10368051053022_1_alg».proof.Proof.KI.Launch
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable {F : FTy → Type} [FloatOps F]

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the body's arithmetic -/

/-- First column: the reset zero block is read back and the tile's total added to it. -/
theorem sout_A_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) :
    sout0_A c i arg2 harg2 arg3 harg3 arg4 harg4 arg5 harg5 arg6 harg6 hc0 hc1 x0 x1 x2 = k0_pay1 (k0_pay4 i x0 x1 x2) (k0_pay3 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg6.read_unread, View.ld_unit_zero (S := S8x128) hz2, View.ld_unit_zero (S := S1024x256) hz2, View.ld_unit_zero (S := S1024x1024) hz2]

/-- Interior column: the tile's total added to what the scratch held. -/
theorem sout_B_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) :
    sout0_B c i arg2 harg2 arg3 harg3 arg4 harg4 arg5 harg5 arg6 harg6 hc0 hc1 x0 x1 x2 xs0 = k0_pay1 (k0_pay4 i x0 x1 x2) xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S8x128) hz2, View.ld_unit_zero (S := S1024x256) hz2, View.ld_unit_zero (S := S1024x1024) hz2]

/-- Last column: the same in the scratch, -/
theorem sout_C_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) :
    sout0_C c i arg2 harg2 arg3 harg3 arg4 harg4 arg5 harg5 arg6 harg6 hc0 hc1 x0 x1 x2 xs0 = k0_pay1 (k0_pay4 i x0 x1 x2) xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S8x128) hz2, View.ld_unit_zero (S := S1024x256) hz2, View.ld_unit_zero (S := S1024x1024) hz2]

/-- and the output block is the updated scratch read back, as a one-row block. -/
theorem out_C_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) :
    out0_C c i arg2 harg2 arg3 harg3 arg4 harg4 arg5 harg5 arg6 harg6 hc0 hc1 x0 x1 x2 xs0 = k0_pay2 (k0_pay1 (k0_pay4 i x0 x1 x2) xs0) := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S8x128) _ hz2]
  simp only [View.readAt_eq_ld, harg2.read_unread, harg3.read_unread, harg4.read_unread, harg6.read_unread, View.ld_unit_zero (S := S8x128) hz2, View.ld_unit_zero (S := S1024x256) hz2, View.ld_unit_zero (S := S1024x1024) hz2]

/-! ## The running sum in closed form -/

/-- The loss tile of point `t`: the body's arithmetic of the point's three input blocks. -/
def tile (c : Dev nD) (t : Fin cfg0.N) : FVec F S1024x1024 .f32 :=
  k0_pay4 (grid0.coords t) (iblk m c 0 t) (iblk m c 1 t) (iblk m c 2 t)

theorem accAt_first (c : Dev nD) (t : Fin cfg0.N) (h0 : t.val % 8 = 0) :
    accAt m c t.val t.isLt = k0_pay1 (tile m c t) (k0_pay3 (F := F)) :=
  (accAt_A m c t h0).trans (sout_A_eq ..)

theorem accAt_next (c : Dev nD) (t : Fin cfg0.N) (h0 : ¬t.val % 8 = 0) :
    accAt m c t.val t.isLt = k0_pay1 (tile m c t) (accAt m c (t.val - 1) (Nat.lt_of_le_of_lt (Nat.sub_le _ _) t.isLt)) := by
  by_cases h1 : t.val % 8 = 7
  · exact (accAt_C m c t h0 h1).trans (sout_C_eq ..)
  · exact (accAt_B m c t h0 h1).trans (sout_B_eq ..)

theorem outAt_last (c : Dev nD) (t : Fin cfg0.N) (h1 : t.val % 8 = 7) :
    outAt m c t = k0_pay2 (accAt m c t.val t.isLt) := by
  unfold outAt
  rw [dif_pos h1, out_C_eq, accAt_next m c t (by omega)]
  rfl

/-! ## The result array after the region -/

/-- The printed index maps and the grid's coordinates, decided over the 64 points. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = (grid0.coords t 1).val
    ∧ win0_3.index t (0 : Fin 3) = t.val / 8 ∧ win0_3.index t (1 : Fin 3) = 0 ∧ win0_3.index t (2 : Fin 3) = 0
    ∧ (grid0.coords t 0).val = t.val / 8 ∧ (grid0.coords t 1).val = t.val % 8 :=
  (by decide +kernel : ∀ t : Fin grid0.N, _)

theorem rowEnd_lt (r : ℕ) (h : r < 8) : r * 8 + 7 < cfg0.N := lt_of_lt_of_eq (by omega : r * 8 + 7 < 64) N_0.symm

/-- Row `r` of the result array holds the running sum after the row's last column. -/
def G3 (c : Dev nD) : Vec F S8x8x128 .f32 := fun x =>
  accAt m c ((x 0).val * 8 + 7) (rowEnd_lt _ (x 0).isLt) (ix2 (x 1) (x 2))

theorem accAt_congr (c : Dev nD) {n n' : ℕ} (h : n = n') (hn : n < cfg0.N) (hn' : n' < cfg0.N) : accAt m c n hn = accAt m c n' hn' := by
  subst h; rfl

/-- What a row's last column writes back is that row of `G3`. -/
theorem flushed3_eq (c : Dev nD) (t : Fin cfg0.N) (hf : (cfg0.win 3).flush t = true) :
    (dats m 0 c).flushed 3 t = ((cfg0.win 3).blk t).view.read (Elt F) (G3 m c) := by
  have h7 : t.val % 8 = 7 := (flush0_3 t).mp hf
  have hN : t.val < 64 := lt_of_lt_of_eq t.isLt N_0
  obtain ⟨-, -, -, -, -, -, e0, e1, e2, -, -⟩ := idx_facts t
  show (cfg0.win 3).cut (grid0.coords t) ((dats m 0 c).after 3 t) = _
  rw [after0_3, outAt_last m c t h7]
  funext y
  obtain ⟨u, a, b, rfl⟩ : ∃ (u : Fin 1) (a : Fin 8) (b : Fin 128), y = ix3 u a b := ⟨y 0, y 1, y 2, eq_ix3 (n0 := 1) (n1 := 8) (n2 := 128) y⟩
  show k0_pay2 (accAt m c t.val t.isLt) (ix3 u a b) = G3 m c (((cfg0.win 3).blk t).view.emb (ix3 u a b))
  have hemb : ((cfg0.win 3).blk t).view.emb (ix3 u a b) = ix3 (⟨t.val / 8, by omega⟩ : Fin 8) a b := by
    funext d; apply Fin.ext
    match d with
    | ⟨0, _⟩ => show win0_3.index t (0 : Fin 3) * 1 + 1 * u.val = t.val / 8; omega
    | ⟨1, _⟩ => show win0_3.index t (1 : Fin 3) * 8 + 1 * a.val = a.val; omega
    | ⟨2, _⟩ => show win0_3.index t (2 : Fin 3) * 128 + 1 * b.val = b.val; omega
  rw [hemb]
  unfold k0_pay2 G3
  rw [shapeCast_ab_1ab_apply]
  show accAt m c t.val t.isLt (ix2 a b) = accAt m c (t.val / 8 * 8 + 7) _ (ix2 a b)
  rw [accAt_congr m c (by omega : t.val / 8 * 8 + 7 = t.val) _ t.isLt]

/-- An index of the result array is in point `t`'s block iff its row is `t / 8`. -/
theorem mem_blk3 (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v40).slice (win0_3.rect t)).set ↔ _
  rw [View.set_slice_whole, Rect.mem_set_unit]
  exact Iff.rfl

/-- Every row is written back by its last column. -/
theorem cover3 (i : S8x8x128.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  let t : Fin cfg0.N := ⟨(i 0).val * 8 + 7, rowEnd_lt _ hi0⟩
  obtain ⟨-, -, -, -, -, -, e0, e1, e2, -, -⟩ := idx_facts t
  have htv : t.val = (i 0).val * 8 + 7 := rfl
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- The result array after the region. -/
theorem final3 (c : Dev nD) : (dats m 0 c).arrAt 3 cfg0.N = G3 m c :=
  (dats m 0 c).arrAt_eq_of_cover 3 (G3 m c) (flushed3_eq m c) (cover3)

/-! ## The input blocks, read off their arrays -/

theorem iblk0_apply (c : Dev nD) (t : Fin cfg0.N) (p : Fin 1024) (k : Fin 256) :
    iblk m c 0 t (ix2 p k) = V m c main_v39 (ix2 (⟨(grid0.coords t 0).val * 1024 + p.val, by have := (grid0.coords t 0).isLt; have : (grid0.coords t 0).val < 8 := this; omega⟩ : Fin 8192) k) := by
  obtain ⟨e0, e1, -⟩ := idx_facts t
  unfold iblk
  rw [View.read_apply]
  show V m c main_v39 _ = V m c main_v39 _
  congr 1
  funext a; apply Fin.ext
  match a with
  | ⟨0, _⟩ => show win0_0.index t (0 : Fin 2) * 1024 + 1 * p.val = (grid0.coords t 0).val * 1024 + p.val; omega
  | ⟨1, _⟩ => show win0_0.index t (1 : Fin 2) * 256 + 1 * k.val = k.val; omega

theorem iblk1_apply (c : Dev nD) (t : Fin cfg0.N) (q : Fin 1024) (k : Fin 256) :
    iblk m c 1 t (ix2 q k) = V m c main_v39 (ix2 (⟨(grid0.coords t 1).val * 1024 + q.val, by have := (grid0.coords t 1).isLt; have : (grid0.coords t 1).val < 8 := this; omega⟩ : Fin 8192) k) := by
  obtain ⟨-, -, e0, e1, -⟩ := idx_facts t
  unfold iblk
  rw [View.read_apply]
  show V m c main_v39 _ = V m c main_v39 _
  congr 1
  funext a; apply Fin.ext
  match a with
  | ⟨0, _⟩ => show win0_1.index t (0 : Fin 2) * 1024 + 1 * q.val = (grid0.coords t 1).val * 1024 + q.val; omega
  | ⟨1, _⟩ => show win0_1.index t (1 : Fin 2) * 256 + 1 * k.val = k.val; omega

theorem iblk2_apply (c : Dev nD) (t : Fin cfg0.N) (p q : Fin 1024) :
    iblk m c 2 t (ix2 p q) = V m c main_v38 (ix2 (⟨(grid0.coords t 0).val * 1024 + p.val, by have := (grid0.coords t 0).isLt; have : (grid0.coords t 0).val < 8 := this; omega⟩ : Fin 8192)
      (⟨(grid0.coords t 1).val * 1024 + q.val, by have := (grid0.coords t 1).isLt; have : (grid0.coords t 1).val < 8 := this; omega⟩ : Fin 8192)) := by
  obtain ⟨-, -, -, -, e0, e1, -⟩ := idx_facts t
  unfold iblk
  rw [View.read_apply]
  show V m c main_v38 _ = V m c main_v38 _
  congr 1
  funext a; apply Fin.ext
  match a with
  | ⟨0, _⟩ => show win0_2.index t (0 : Fin 2) * 1024 + 1 * p.val = (grid0.coords t 0).val * 1024 + p.val; omega
  | ⟨1, _⟩ => show win0_2.index t (1 : Fin 2) * 1024 + 1 * q.val = (grid0.coords t 1).val * 1024 + q.val; omega

end Cert.KernelIdeal.Hand

end
-- ==== Proof.Spec.lean ====
/-
  The mathematics both programs compute at the ideal instance, where a float is an extended real and every
  operation is exact: the binary cross-entropy of an adjacency array against the logistic of a Gram matrix whose
  diagonal is set to zero, averaged over all 8192 × 8192 entries.
    gram(P,Q)  = Σ_{k<256} l[P,k] · l[Q,k]
    prob(P,Q)  = 0 on the diagonal, logistic(gram(P,Q)) off it
    loss(P,Q)  = 0 − (adj[P,Q] · max(log prob, c) + (1 − adj[P,Q]) · max(log1p(0 − prob), c))
    total      = Σ_{P,Q} loss(P,Q),   mean = total / 2^26
  with c the clamp literal (−100 as an f32 pattern), which is never evaluated.  The sum over the 8192 × 8192 entries
  is also the sum over an 8 × 8 grid of 1024 × 1024 tiles (`total_tiled`): extended reals under addition are a
  commutative monoid, so a finite sum may be regrouped and reordered freely.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- The shape of the embedding array: 8192 rows of 256 features. -/
abbrev SL : Shape := ⟨2, ![8192, 256]⟩
/-- The shape of the adjacency array and of the Gram matrix. -/
abbrev SA : Shape := ⟨2, ![8192, 8192]⟩

/-- The clamp applied to both logarithms, as the f32 pattern the programs carry. -/
abbrev clampC : EReal := Ideal.ofBits .f32 0xC2C80000#32

/-- The Gram matrix entry: the inner product of rows `P` and `Q`. -/
def gram (l : SL.Idx → EReal) (P Q : Fin 8192) : EReal :=
  ∑ k : Fin 256, l (ix2 P k) * l (ix2 Q k)

/-- The predicted probability: the logistic of the Gram entry, with the diagonal set to zero. -/
def prob (l : SL.Idx → EReal) (P Q : Fin 8192) : EReal :=
  if P = Q then 0 else Ideal.logistic (gram l P Q)

/-- The cross-entropy of one entry, both logarithms clamped below. -/
def lossAt (l : SL.Idx → EReal) (adj : SA.Idx → EReal) (P Q : Fin 8192) : EReal :=
  0 - (adj (ix2 P Q) * max (Ideal.log (prob l P Q)) clampC
        + (1 - adj (ix2 P Q)) * max (Ideal.log1p (0 - prob l P Q)) clampC)

/-- The sum of the cross-entropy over every entry. -/
def total (l : SL.Idx → EReal) (adj : SA.Idx → EReal) : EReal :=
  ∑ P : Fin 8192, ∑ Q : Fin 8192, lossAt l adj P Q

/-- The mean: the total divided by 8192 · 8192 = 2^26 (as the f32 pattern the programs carry). -/
def mean (l : SL.Idx → EReal) (adj : SA.Idx → EReal) : EReal :=
  Ideal.div (total l adj) (Ideal.ofBits .f32 0x4C800000#32)

/-- A position below `a · b` from a block number and an offset in the block. -/
theorem tile_lt {a b : Nat} (i : Fin a) (p : Fin b) : i.val * b + p.val < a * b :=
  Nat.lt_of_lt_of_le (Nat.add_lt_add_left p.isLt _)
    (by rw [← Nat.succ_mul]; exact Nat.mul_le_mul_right _ i.isLt)

/-- A sum over `a · b` positions is the sum over `a` blocks of the sums over the `b` positions of each block. -/
theorem sum_fin_mul {M : Type*} [AddCommMonoid M] (a b : Nat) (f : Fin (a * b) → M) :
    ∑ x : Fin (a * b), f x = ∑ i : Fin a, ∑ p : Fin b, f ⟨i.val * b + p.val, tile_lt i p⟩ := by
  rw [← Equiv.sum_comp (finProdFinEquiv (m := a) (n := b)) f, Fintype.sum_prod_type]
  refine Finset.sum_congr rfl fun i _ => Finset.sum_congr rfl fun p _ => ?_
  congr 1
  apply Fin.ext
  simp only [finProdFinEquiv_apply_val]
  rw [Nat.mul_comm, Nat.add_comm]

/-- The same, for a range whose length is given as a product by an equation. -/
theorem sum_fin_of_eq_mul {M : Type*} [AddCommMonoid M] (a b n : Nat) (h : a * b = n) (f : Fin n → M) :
    ∑ x : Fin n, f x = ∑ i : Fin a, ∑ p : Fin b, f ⟨i.val * b + p.val, h ▸ tile_lt i p⟩ := by
  subst h
  exact sum_fin_mul a b f

/-- The total over 8192 × 8192 entries, regrouped as an 8 × 8 grid of 1024 × 1024 tiles. -/
theorem total_tiled (l : SL.Idx → EReal) (adj : SA.Idx → EReal) :
    total l adj = ∑ i : Fin 8, ∑ j : Fin 8, ∑ p : Fin 1024, ∑ q : Fin 1024,
      lossAt l adj ⟨i.val * 1024 + p.val, by omega⟩ ⟨j.val * 1024 + q.val, by omega⟩ := by
  have h : (8 : Nat) * 1024 = 8192 := by norm_num
  unfold total
  refine (sum_fin_of_eq_mul 8 1024 8192 h _).trans ?_
  refine Finset.sum_congr rfl fun i _ => ?_
  refine (Finset.sum_congr rfl fun p _ => sum_fin_of_eq_mul 8 1024 8192 h _).trans ?_
  exact Finset.sum_comm

end Cert.Spec
-- ==== Proof.RefSide.lean ====
/-
  The reference program at the ideal instance computes the mean of Spec.lean.  Read index by index, its last stages
  are: the quotient by 2^26 of (zero plus the sum over every entry of the negated cross-entropy term).  Entry by entry
  the term is the spec's: the Gram entry is the inner product of two rows (the transposed operand read back at the
  swapped index); the probability is (1 − eye) · 1/(1 + exp(−gram)), where eye is the comparison of the row and column
  numbers read as a float, so it is 0 on the diagonal (0 · x = 0) and the logistic off it (1 · x = x); and the outer
  negation is 0 − x.  These identities hold for every extended real, so no finiteness hypothesis is used.  The
  adjacency array is kept as one opaque function `adjR` of the edge list.
-/
import proofs.«157359_j10368051053022_1_alg».proof.Defs
import proofs.«157359_j10368051053022_1_alg».proof.Proof.Spec
import proofs.«157359_j10368051053022_1_alg».proof.Proof.Gen.ReferenceIdeal.Read
import proofs.«157359_j10368051053022_1_alg».proof.Proof.Gen.ReferenceIdeal.Run
import proofs.«157359_j10368051053022_1_alg».proof.Proof.Gen.ReferenceIdeal
import proofs.«157359_j10368051053022_1_alg».proof.Proof.Gen.Pre_finite_inputs

noncomputable section

open scoped BigOperators
open Idealize.ShloMosaic Idealize.ShloMosaic.TcCoe Idealize.SL.Sem Idealize.ShloMosaic.ValueIdx

namespace Cert.RefSide

open Cert.ReferenceIdeal Cert.ReferenceIdeal.Gen Cert.ReferenceIdeal.Read

/-- The adjacency array the reference builds from the edge list: kept as one opaque function of the edge list. -/
def adjR (e : (⟨S2x131072, .i32⟩ : BufTy).Contents (Elt Ideal)) : Cert.Spec.SA.Idx → EReal :=
  Cert.ReferenceIdeal.Read.val_main_v38 (F := Ideal) e

/-- The f32 pattern of one denotes the real one. -/
theorem ofBits_one_f32 : Ideal.ofBits .f32 0x3F800000#32 = 1 := by
  simp [Ideal.ofBits, Ideal.ieee, -EReal.coe_mul]; norm_num

/-- Row and column numbers below 8192 are told apart by their 32-bit words. -/
theorem ofNat_inj (P Q : Fin 8192) : BitVec.ofNat 32 P.val = BitVec.ofNat 32 Q.val ↔ P = Q := by
  constructor
  · intro h
    have h2 := congrArg BitVec.toNat h
    simp only [BitVec.toNat_ofNat] at h2
    apply Fin.ext
    have hP := P.isLt
    have hQ := Q.isLt
    omega
  · rintro rfl; rfl

/-- The identity-matrix entry as the reference spells it: the comparison of the row and column numbers, read as a float. -/
theorem eye_eq (P Q : Fin 8192) :
    (FloatOps.uitofp (F := Ideal) .f32
      (IntOp.cmpi .eq (IntOp.addi (BitVec.ofNat 32 P.val) 0#32) (BitVec.ofNat 32 Q.val)) : EReal)
      = if P = Q then 1 else 0 := by
  have hx : IntOp.cmpi .eq (IntOp.addi (BitVec.ofNat 32 P.val) 0#32) (BitVec.ofNat 32 Q.val)
      = BitVec.ofBool (decide (P = Q)) := by
    unfold IntOp.cmpi IntOp.addi
    rw [BitVec.add_zero]
    congr 1
    by_cases h : P = Q
    · subst h; simp
    · rw [decide_eq_false h]
      exact beq_eq_false_iff_ne.mpr (fun e => h ((ofNat_inj P Q).mp e))
  rw [hx]
  show (((BitVec.ofBool (decide (P = Q))).toNat : ℝ) : EReal) = _
  by_cases h : P = Q
  · rw [if_pos h, decide_eq_true h]; simp
  · rw [if_neg h, decide_eq_false h]; simp

/-- One minus one is zero on the extended reals: both are real. -/
theorem one_sub_one : (1 : EReal) - 1 = 0 := by
  rw [← EReal.coe_one, ← EReal.coe_sub, sub_self, EReal.coe_zero]

/-- The left operand's index at entry `(P, Q)` and contraction position `k` is `(P, k)`. -/
theorem lidx_ix2 (P Q : Fin 8192) (k : Fin 256) : lidx_main_v40 (ix2 P Q) k = ix2 P k := by
  funext a; match a with | ⟨0, _⟩ => rfl | ⟨1, _⟩ => rfl

/-- The right operand is the transposed embedding: its index `(k, Q)` reads the embedding at `(Q, k)`. -/
theorem ridx_ix2 (P Q : Fin 8192) (k : Fin 256) : idx_main_v39 (ridx_main_v40 (ix2 P Q) k) = ix2 Q k := by
  funext a; match a with | ⟨0, _⟩ => rfl | ⟨1, _⟩ => rfl

/-- The reference's matrix product at entry `(P, Q)` is the Gram entry: the inner product of rows `P` and `Q`. -/
theorem gram_eq (x0 : (⟨S8192x256, .f32⟩ : BufTy).Contents (Elt Ideal)) (P Q : Fin 8192) :
    val_main_v40 (F := Ideal) x0 (ix2 P Q) = Cert.Spec.gram x0 P Q := by
  rw [val_main_v40_apply]
  unfold Cert.Spec.gram
  refine Finset.sum_congr rfl fun k _ => ?_
  rw [val_main_v39_apply, lidx_ix2, ridx_ix2]

/-- The reference's masked probability `(1 − eye) · 1/(1 + exp(−gram))` is the spec's: `0 · x = 0` on the diagonal,
    `1 · x = x` off it, and `1/(1 + exp(−g))` is the logistic by definition. -/
theorem prob_eq (x0 : (⟨S8192x256, .f32⟩ : BufTy).Contents (Elt Ideal)) (P Q : Fin 8192) :
    val_main_v55 (F := Ideal) x0 (ix2 P Q) = Cert.Spec.prob x0 P Q := by
  rw [val_main_v55_apply, val_main_v54_apply, val_main_v53_apply, val_main_cst_12_apply, val_main_v52_apply,
    val_main_v51_apply, val_main_v50_apply, val_main_v47_apply, val_main_v48_apply, val_main_v49_apply,
    val_main_c_11_apply, val_main_v46_apply, val_main_v45_apply, val_main_cst_10_apply, val_main_v44_apply,
    val_main_v43_apply, val_main_cst_9_apply, val_main_v42_apply, val_main_v41_apply, gram_eq]
  show (Ideal.ofBits .f32 0x3F800000#32 - (FloatOps.uitofp (F := Ideal) .f32
      (IntOp.cmpi .eq (IntOp.addi (BitVec.ofNat 32 P.val) 0#32) (BitVec.ofNat 32 Q.val)) : EReal))
      * Ideal.div (Ideal.ofBits .f32 0x3F800000#32)
          (Ideal.ofBits .f32 0x3F800000#32 + Ideal.exp (-(Cert.Spec.gram x0 P Q))) = _
  rw [eye_eq, ofBits_one_f32]
  unfold Cert.Spec.prob
  by_cases h : P = Q
  · rw [if_pos h, if_pos h, one_sub_one, zero_mul]
  · rw [if_neg h, if_neg h, sub_zero, one_mul]; rfl

/-- The reference's negated term at entry `(P, Q)` is the spec's cross-entropy term there: `−x = 0 − x`, and the
    pattern of one denotes one. -/
theorem loss_eq (x0 : (⟨S8192x256, .f32⟩ : BufTy).Contents (Elt Ideal)) (x1 : (⟨S2x131072, .i32⟩ : BufTy).Contents (Elt Ideal))
    (P Q : Fin 8192) :
    val_main_v68 (F := Ideal) x0 x1 (ix2 P Q) = Cert.Spec.lossAt x0 (adjR x1) P Q := by
  rw [val_main_v68_apply, val_main_v67_apply, val_main_v63_apply, val_main_v66_apply, val_main_v65_apply,
    val_main_v64_apply, val_main_cst_15_apply, val_main_v58_apply, val_main_v62_apply, val_main_v56_apply,
    val_main_v60_apply, val_main_v59_apply, val_main_v57_apply, val_main_cst_13_apply, val_main_v61_apply,
    val_main_cst_14_apply, prob_eq]
  show -(adjR x1 (ix2 P Q) * max (Ideal.log (Cert.Spec.prob x0 P Q)) (Ideal.ofBits .f32 0xC2C80000#32)
      + (Ideal.ofBits .f32 0x3F800000#32 - adjR x1 (ix2 P Q))
        * max (Ideal.log1p (-(Cert.Spec.prob x0 P Q))) (Ideal.ofBits .f32 0xC2C80000#32)) = _
  unfold Cert.Spec.lossAt
  rw [ofBits_one_f32, zero_sub, zero_sub]

/-- The reference's result: the mean of the spec, of the embedding and of the adjacency the reference builds. -/
theorem ref_value (x0 : (⟨S8192x256, .f32⟩ : BufTy).Contents (Elt Ideal)) (x1 : (⟨S2x131072, .i32⟩ : BufTy).Contents (Elt Ideal)) :
    val_main_v70 (F := Ideal) x0 x1 = fun _ => Cert.Spec.mean x0 (adjR x1) := by
  funext i
  rw [val_main_v70_apply, val_main_v69_apply, val_main_cst_16_apply, val_main_cst_17_apply]
  show Ideal.div (Ideal.ofBits .f32 0x00000000#32 + ∑ j : S8192x8192.Idx, val_main_v68 (F := Ideal) x0 x1 j)
      (Ideal.ofBits .f32 0x4C800000#32) = _
  unfold Cert.Spec.mean Cert.Spec.total
  rw [Ideal.ofBits_zero_f32, zero_add, ValueIdx.sum_idx2]
  have hs : (∑ a : Fin 8192, ∑ b : Fin 8192, val_main_v68 (F := Ideal) x0 x1 (ix2 a b))
      = ∑ P : Fin 8192, ∑ Q : Fin 8192, Cert.Spec.lossAt x0 (adjR x1) P Q :=
    Finset.sum_congr rfl fun P _ => Finset.sum_congr rfl fun Q _ => loss_eq x0 x1 P Q
  rw [hs]

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, ends with the mean of the spec in its result and leaves its arguments as they were. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩
      (fun r => ∀ c : Dev nD,
        r.2.mem ((c.tc : Thread nD τ).loc main_v70)
          = (fun _ => Cert.Spec.mean (m' ((c.tc : Thread nD τ).loc main_arg0)) (adjR (m' ((c.tc : Thread nD τ).loc main_arg1))))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run Cert.ReferenceIdeal.defs _ _).mono
    (fun _ h c => ⟨(h c).1.trans ((val_main_v70_eq m' c).trans (ref_value _ _)), (h c).2⟩)
    (Cert.ReferenceIdeal.Value.run (F := Ideal) m' ρ')

end Cert.RefSide
-- ==== Proof.KernelHost.lean ====
/-
  The host operations around the kernel, at the ideal instance.
  Before the kernel: the adjacency array is built by the same two scatters of the same edge list as the reference's,
  from a zero array with ones, spelled in bf16 where the reference spells them in f32; both spellings denote the
  extended reals 0 and 1, so the two arrays are one function of the edge list (`adj_eq`).  The embedding is narrowed
  to bf16, which is the identity on extended reals (`l_eq`).  No operation writes an argument.
  After the kernel: entry (i, 0, 0) of the kernel's result is sliced out for each of the 8 row blocks, summed from
  zero, and divided by 2^26 (`tail_eq`); these operations write none of the arrays the kernel read or wrote.
-/
import proofs.«157359_j10368051053022_1_alg».proof.Proof.Gen.KernelIdeal.Launch
import Idealize.ShloMosaic.Lib.StableHlo.Run
import Idealize.ShloMosaic.Lib.Pipeline.Value
import proofs.«157359_j10368051053022_1_alg».proof.Proof.RefSide

noncomputable section

open scoped BigOperators
open Idealize.ShloMosaic Idealize.ShloMosaic.TcCoe Idealize.SL.Sem Idealize.ShloMosaic.ValueIdx

namespace Cert.KernelHost

open Cert.KernelIdeal Cert.KernelIdeal.Gen

/-- The bf16 pattern of zero denotes zero, as the f32 pattern of zero does. -/
theorem ofBits_zero_bf16 : Ideal.ofBits .bf16 0x0000#16 = 0 := by simp [Ideal.ofBits, Ideal.ieee]

/-- The bf16 pattern of one denotes one, as the f32 pattern of one does. -/
theorem ofBits_one_bf16 : Ideal.ofBits .bf16 0x3F80#16 = 1 := by
  simp [Ideal.ofBits, Ideal.ieee, -EReal.coe_mul]; norm_num

/-- The zero the kernel's adjacency starts from, spelled in bf16, is the reference's, spelled in f32. -/
theorem const_zero : (constant (F := Ideal) S_ .bf16 0x0000#16 : S_.Idx → EReal) = constant (F := Ideal) S_ .f32 0x00000000#32 := by
  funext i
  show Ideal.ofBits .bf16 0x0000#16 = Ideal.ofBits .f32 0x00000000#32
  rw [ofBits_zero_bf16, Ideal.ofBits_zero_f32]

/-- The one the kernel's adjacency is set to, spelled in bf16, is the reference's, spelled in f32. -/
theorem const_one : (constant (F := Ideal) S_ .bf16 0x3F80#16 : S_.Idx → EReal) = constant (F := Ideal) S_ .f32 0x3F800000#32 := by
  funext i
  show Ideal.ofBits .bf16 0x3F80#16 = Ideal.ofBits .f32 0x3F800000#32
  rw [ofBits_one_bf16, Cert.RefSide.ofBits_one_f32]

/-- The embedding the kernel is handed: the narrowing to bf16 is the identity on extended reals. -/
theorem l_eq (V₀ : Valuation τ sig (Elt Ideal)) :
    (StableHlo.after (hostOps0 (F := Ideal)) V₀ (Proc.devRef .tc main_v39) : Cert.Spec.SL.Idx → EReal)
      = V₀ (Proc.devRef .tc main_arg0) := by
  after_results_simp
  rfl

set_option maxRecDepth 8192 in
/-- The adjacency the kernel is handed is the one the reference builds: the same two scatters of the same edge list,
    from the same zero array with the same ones. -/
theorem adj_eq (V₀ : Valuation τ sig (Elt Ideal)) :
    (StableHlo.after (hostOps0 (F := Ideal)) V₀ (Proc.devRef .tc main_v38) : Cert.Spec.SA.Idx → EReal)
      = Cert.RefSide.adjR (V₀ (Proc.devRef .tc main_arg1)) := by
  after_results_simp
  rw [const_zero, const_one]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The eight partial sums, read through the slice and the reshape: entry `(a, 0, 0)` of the kernel's result. -/
theorem tail_sum (w : S8x8x128.Idx → EReal) :
    (∑ a : Fin 8, shapeCast S8 (extractStridedSlice S8x1x1 ![0, 0, 0] w slices_S8x8x128_S8x1x1_0_0_0)
        shapeCasts_S8x1x1_S8 (ix1 a))
      = ∑ a : Fin 8, w (ix3 a (0 : Fin 8) (0 : Fin 128)) := by
  refine Finset.sum_congr rfl fun a _ => ?_
  rw [shapeCast_apply _ shapeCasts_S8x1x1_S8 (ix1 a) (ix3 a (0 : Fin 1) (0 : Fin 1))
    (by rewrite [Shape.rowMajor_val_three, Shape.rowMajor_val_one]; show (a.val * 1 + 0) * 1 + 0 = a.val; omega)]
  exact extractStridedSlice_apply ![0, 0, 0] _ slices_S8x8x128_S8x1x1_0_0_0 (ix3 a (0 : Fin 1) (0 : Fin 1))
    (ix3 a (0 : Fin 8) (0 : Fin 128)) (fun b => match b with
      | ⟨0, _⟩ => by show a.val = 0 + a.val; omega
      | ⟨1, _⟩ => by show 0 = 0 + 0; omega
      | ⟨2, _⟩ => by show 0 = 0 + 0; omega)

/-- The result of the operations after the kernel: the sum of the 8 row blocks' partial sums, over 2^26. -/
theorem tail_eq (W : Valuation τ sig (Elt Ideal)) :
    (StableHlo.after (hostOps1 (F := Ideal)) W (Proc.devRef .tc main_v44) : S_.Idx → EReal)
      = fun _ => Ideal.div (∑ i : Fin 8, (W (Proc.devRef .tc main_v40) : S8x8x128.Idx → EReal) (ix3 i (0 : Fin 8) (0 : Fin 128)))
          (Ideal.ofBits .f32 0x4C800000#32) := by
  after_results
  funext j
  show Ideal.div (Host.reduceAdd (F := Ideal) (φ := .f32)
      (fun i : S8.Idx => shapeCast S8 (extractStridedSlice S8x1x1 ![0, 0, 0]
        (W (Proc.devRef .tc main_v40) : S8x8x128.Idx → EReal) slices_S8x8x128_S8x1x1_0_0_0) shapeCasts_S8x1x1_S8 i)
      (constant S_ .f32 0x00000000#32) reducesTo_S8_S_d0 h_S_ j) (Ideal.ofBits .f32 0x4C800000#32) = _
  simp only [Host.reduceAdd, Ideal.hostReduceAdd_def]
  rw [Ideal.hostReduceAdd_total reducesTo_S8_S_d0 (fun b => b.elim0)]
  show Ideal.div (Ideal.ofBits .f32 0x00000000#32 + _) _ = _
  rw [Ideal.ofBits_zero_f32, zero_add, sum_idx1]
  exact congrArg (fun t => Ideal.div t (Ideal.ofBits .f32 0x4C800000#32)) (tail_sum (W (Proc.devRef .tc main_v40)))

/-! ## What the host operations leave as it was -/

section Unwritten

variable {F : FTy → Type} [FloatOps F]

/-- The arrays the operations before the kernel write. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_v20, main_v21, main_v22, main_v23, main_c_4, main_v24, main_v25, main_c_5, main_v26, main_v27, main_v28, main_c_6, main_v29, main_v30, main_c_7, main_v31, main_v32, main_v33, main_v34, main_v35, main_v36, main_cst_8, main_v37, main_v38, main_v39]

/-- Each operation before the kernel writes one array of that list. -/
theorem hostOps0_writes : (hostOps0 : List (HloOp τ sig (Elt F))).Forall fun op =>
    op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (simp only [StableHlo.nullary_writes, StableHlo.unary_writes, StableHlo.binary_writes, StableHlo.ternary_writes,
      StableHlo.reshape_writes, Finset.singleton_subset_iff, List.mem_toFinset]; exact List.mem_map_of_mem (by decide))

/-- An array the operations before the kernel do not write is as it was. -/
theorem hostOps0_keeps (V : Valuation τ sig (Elt F)) (r : Ref sig .tc) (h : r ∉ hostOps0_W) :
    StableHlo.after (hostOps0 (F := F)) V (Proc.devRef .tc r) = V (Proc.devRef .tc r) :=
  StableHlo.after_of_writes_sub hostOps0 V hostOps0_writes h

/-- The embedding argument reaches the kernel as it was. -/
theorem hostOps0_arg0 (V : Valuation τ sig (Elt F)) :
    StableHlo.after (hostOps0 (F := F)) V (Proc.devRef .tc main_arg0) = V (Proc.devRef .tc main_arg0) :=
  hostOps0_keeps V main_arg0 (by decide)

/-- The edge-list argument reaches the kernel as it was. -/
theorem hostOps0_arg1 (V : Valuation τ sig (Elt F)) :
    StableHlo.after (hostOps0 (F := F)) V (Proc.devRef .tc main_arg1) = V (Proc.devRef .tc main_arg1) :=
  hostOps0_keeps V main_arg1 (by decide)

/-- The arrays the operations after the kernel write. -/
abbrev hostOps1_W : List (Ref sig .tc) := [main_v41, main_v42, main_cst_9, main_v43, main_cst_10, main_v44]

/-- Each operation after the kernel writes one array of that list. -/
theorem hostOps1_writes : (hostOps1 : List (HloOp τ sig (Elt F))).Forall fun op =>
    op.writes ⊆ (hostOps1_W.map (Proc.devRef (τ := τ) .tc)).toFinset := by
  simp only [List.Forall]
  refine ⟨?_, ?_, ?_, ?_, ?_, ?_⟩ <;>
  (simp only [StableHlo.nullary_writes, StableHlo.unary_writes, StableHlo.binary_writes, StableHlo.ternary_writes,
      StableHlo.reshape_writes, Finset.singleton_subset_iff, List.mem_toFinset]; exact List.mem_map_of_mem (by decide))

/-- An array the operations after the kernel do not write is as it was. -/
theorem hostOps1_keeps (V : Valuation τ sig (Elt F)) (r : Ref sig .tc) (h : r ∉ hostOps1_W) :
    StableHlo.after (hostOps1 (F := F)) V (Proc.devRef .tc r) = V (Proc.devRef .tc r) :=
  StableHlo.after_of_writes_sub hostOps1 V hostOps1_writes h

/-- The two arguments, the adjacency, the narrowed embedding and the kernel's result are as the kernel left them. -/
theorem hostOps1_arg0 (V : Valuation τ sig (Elt F)) :
    StableHlo.after (hostOps1 (F := F)) V (Proc.devRef .tc main_arg0) = V (Proc.devRef .tc main_arg0) :=
  hostOps1_keeps V main_arg0 (by decide)
theorem hostOps1_arg1 (V : Valuation τ sig (Elt F)) :
    StableHlo.after (hostOps1 (F := F)) V (Proc.devRef .tc main_arg1) = V (Proc.devRef .tc main_arg1) :=
  hostOps1_keeps V main_arg1 (by decide)
theorem hostOps1_v38 (V : Valuation τ sig (Elt F)) :
    StableHlo.after (hostOps1 (F := F)) V (Proc.devRef .tc main_v38) = V (Proc.devRef .tc main_v38) :=
  hostOps1_keeps V main_v38 (by decide)
theorem hostOps1_v39 (V : Valuation τ sig (Elt F)) :
    StableHlo.after (hostOps1 (F := F)) V (Proc.devRef .tc main_v39) = V (Proc.devRef .tc main_v39) :=
  hostOps1_keeps V main_v39 (by decide)
theorem hostOps1_v40 (V : Valuation τ sig (Elt F)) :
    StableHlo.after (hostOps1 (F := F)) V (Proc.devRef .tc main_v40) = V (Proc.devRef .tc main_v40) :=
  hostOps1_keeps V main_v40 (by decide)

end Unwritten

end Cert.KernelHost
-- ==== Proof.KernelPay.lean ====
/-
  The kernel body's arithmetic at the ideal instance, payload by payload, read at explicit coordinates.
  One grid step (i, j) computes the 1024 × 1024 tile of cross-entropy terms of row block i and column block j
  (`pay4_apply`: entry (p, q) is the spec's term at row i·1024 + p and column j·1024 + q), adds the tile's total to
  every entry of an 8 × 128 accumulator (`pay1_apply`) that starts at zero (`pay3_apply`), and at the last column
  block stores the accumulator under a leading unit axis (`pay2_apply`).
-/
import proofs.«157359_j10368051053022_1_alg».proof.Proof.Gen.KernelIdeal.Skeleton
import proofs.«157359_j10368051053022_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelPay

open Cert.KernelIdeal Cert.KernelIdeal.Gen

/-- The accumulator update: every entry of the 8 × 128 accumulator gains the sum of the whole 1024 × 1024 tile. -/
theorem pay1_apply (v38 : FVec Ideal S1024x1024 .f32) (v39 : Vec Ideal S8x128 .f32) (a : Fin 8) (b : Fin 128) :
    k0_pay1 (F := Ideal) v38 v39 (ix2 a b) = v39 (ix2 a b) + ∑ p : Fin 1024, ∑ q : Fin 1024, v38 (ix2 p q) := by
  unfold k0_pay1
  rw [shapeCast_self, addf_apply, broadcast_apply]
  refine congrArg (fun t => v39 (ix2 a b) + t) ?_
  unfold extractAt
  refine (Ideal.multiReduction_add_total (shapeCast S1x1024x1024 v38 shapeCasts_S1024x1024_S1x1024x1024) 0x00000000#32
    reduces_S1x1024x1024_S1 (fun b => match b with | ⟨0, _⟩ => rfl) (.inl rfl) rfl _).trans ?_
  show ∑ i : S1x1024x1024.Idx, v38 (Shape.reshapeEquiv shapeCasts_S1024x1024_S1x1024x1024 i) = _
  rw [Equiv.sum_comp (Shape.reshapeEquiv shapeCasts_S1024x1024_S1x1024x1024) v38, ValueIdx.sum_idx2]

/-- The final store: the accumulator, under a leading unit axis. -/
theorem pay2_apply (v : Vec Ideal S8x128 .f32) (a : Fin 8) (b : Fin 128) :
    k0_pay2 (F := Ideal) v (ix3 (0 : Fin 1) a b) = v (ix2 a b) := by
  unfold k0_pay2
  exact shapeCast_ab_1ab_apply v _ 0 a b

/-- The accumulator's first value: zero everywhere. -/
theorem pay3_apply (a : Fin 8) (b : Fin 128) : k0_pay3 (F := Ideal) (ix2 a b) = 0 := by
  unfold k0_pay3
  rw [shapeCast_self, broadcast_apply]
  exact Ideal.ofBits_zero_f32

/-! ## The tile -/

theorem log_apply {s : Shape} {φ : FTy} (x : FVec Ideal s φ) (j : s.Idx) : log x j = Ideal.log (x j) := rfl
theorem log1p_apply {s : Shape} {φ : FTy} (x : FVec Ideal s φ) (j : s.Idx) : log1p x j = Ideal.log1p (x j) := rfl
theorem logistic_apply {s : Shape} {φ : FTy} (x : FVec Ideal s φ) (j : s.Idx) : logistic x j = Ideal.logistic (x j) := rfl
theorem cmpi_apply {s : Shape} {w : Nat} (c : CmpIPredicate) (x y : IVec s w) (j : s.Idx) :
    cmpi c x y j = IntOp.cmpi c (x j) (y j) := rfl
theorem addi_apply {s : Shape} {w : Nat} (x y : IVec s w) (j : s.Idx) : addi x y j = IntOp.addi (x j) (y j) := rfl

/-- The f32 pattern of one denotes the real one. -/
theorem ofBits_one_f32 : Ideal.ofBits .f32 0x3F800000#32 = 1 := by
  simp [Ideal.ofBits, Ideal.ieee, -EReal.coe_mul]; norm_num

/-- The row of the whole array that row `p` of row block `i 0` is. -/
theorem row_lt (i : grid0.Coords) (p : Fin 1024) : (i 0).val * 1024 + p.val < 8192 := by
  have h0 : (i 0).val < 8 := (i 0).isLt
  omega
/-- The column of the whole array that column `q` of column block `i 1` is. -/
theorem col_lt (i : grid0.Coords) (q : Fin 1024) : (i 1).val * 1024 + q.val < 8192 := by
  have h1 : (i 1).val < 8 := (i 1).isLt
  omega
/-- Row `p` of row block `i 0`, and column `q` of column block `i 1`, as a row and a column of the whole array. -/
abbrev row (i : grid0.Coords) (p : Fin 1024) : Fin 8192 := ⟨(i 0).val * 1024 + p.val, row_lt i p⟩
abbrev col (i : grid0.Coords) (q : Fin 1024) : Fin 8192 := ⟨(i 1).val * 1024 + q.val, col_lt i q⟩

/-- The 32-bit word `a · 1024 + p` of a block number below 8 and an offset below 1024 is that natural number. -/
theorem word_val (a : Nat) (ha : a < 8) (p : Nat) (hp : p < 1024) :
    (IntOp.addi (Scalar.muli (BitVec.ofNat 32 a) 1024#32) (BitVec.ofNat 32 p)).toNat = a * 1024 + p := by
  simp only [IntOp.addi, Scalar.muli, IntOp.muli, BitVec.toNat_add, BitVec.toNat_mul, BitVec.toNat_ofNat]
  omega

/-- The left operand's row at output entry `j` is `j`'s row; the right operand's column is `j`'s column. -/
theorem lhs_0 (j : S1024x1024.Idx) (k : dot_S1024x256_S256x1024_S1024x1024_1_0_0_1_n_n.contr.Idx) :
    (dot_S1024x256_S256x1024_S1024x1024_1_0_0_1_n_n.lhsIdx j k 0).val = (j 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem rhs_1 (j : S1024x1024.Idx) (k : dot_S1024x256_S256x1024_S1024x1024_1_0_0_1_n_n.contr.Idx) :
    (dot_S1024x256_S256x1024_S1024x1024_1_0_0_1_n_n.rhsIdx j k 1).val = (j 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The matrix product into a zero accumulator, at an entry: the inner product of a row and a column. -/
theorem mm_apply (A : FVec Ideal S1024x256 .bf16) (B : FVec Ideal S256x1024 .bf16) (p q : Fin 1024) :
    matmul dot_S1024x256_S256x1024_S1024x1024_1_0_0_1_n_n none A B (constant S1024x1024 .f32 0x00000000#32) (ix2 p q)
      = ∑ k : Fin 256, A (ix2 p k) * B (ix2 k q) := by
  simp only [matmul]
  rw [Ideal.matmul_constant_zero_apply,
    ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q)
      ((ValueIdx.contrEquiv1 dot_S1024x256_S256x1024_S1024x1024_1_0_0_1_n_n 256 rfl rfl).symm k) = ix2 p k :=
    funext fun a => Fin.ext (by
      match a with
      | ⟨0, _⟩ => exact lhs_0 _ _
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 p q)
      ((ValueIdx.contrEquiv1 dot_S1024x256_S256x1024_S1024x1024_1_0_0_1_n_n 256 rfl rfl).symm k) = ix2 k q :=
    funext fun a => Fin.ext (by
      match a with
      | ⟨0, _⟩ => exact (dot_S1024x256_S256x1024_S1024x1024_1_0_0_1_n_n.rhsIdx_val_of_single rfl _ _).trans hk
      | ⟨1, _⟩ => exact rhs_1 _ _)
  rw [el, er]

/-- One grid step's tile: entry `(p, q)` is the spec's cross-entropy term at row `i₀·1024 + p` and column
    `i₁·1024 + q`, given that the three blocks the step reads are those blocks of the embedding (twice) and of the
    adjacency. The diagonal test compares the two 32-bit words `i₀·1024 + p` and `i₁·1024 + q`, which are below 8192 and
    so equal exactly when the row and the column are. -/
theorem pay4_apply (i : grid0.Coords) (l : Cert.Spec.SL.Idx → EReal) (adj : Cert.Spec.SA.Idx → EReal)
    (x0 x1 : Vec Ideal S1024x256 .bf16) (x2 : Vec Ideal S1024x1024 .bf16)
    (h0 : ∀ (p : Fin 1024) (k : Fin 256), x0 (ix2 p k) = l (ix2 (row i p) k))
    (h1 : ∀ (q : Fin 1024) (k : Fin 256), x1 (ix2 q k) = l (ix2 (col i q) k))
    (h2 : ∀ (p q : Fin 1024), x2 (ix2 p q) = adj (ix2 (row i p) (col i q)))
    (p q : Fin 1024) :
    k0_pay4 (F := Ideal) i x0 x1 x2 (ix2 p q) = Cert.Spec.lossAt l adj (row i p) (col i q) := by
  unfold k0_pay4
  simp only [subf_apply, addf_apply, mulf_apply, maximumf_apply, broadcast_apply, extf_apply, shapeCast_self,
    select_apply, log_apply, log1p_apply, logistic_apply, cmpi_apply, addi_apply, mm_apply]
  have e0 : iota .tc S1024x1024 32 [0] iota_S1024x1024_d0_w32 (ix2 p q) = BitVec.ofNat 32 p.val :=
    iota_single_apply _ _ _ _ _ _
  have e1 : iota .tc S1024x1024 32 [1] iota_S1024x1024_d1_w32 (ix2 p q) = BitVec.ofNat 32 q.val :=
    iota_single_apply _ _ _ _ _ _
  have hsel : IntOp.cmpi .eq (IntOp.addi (Scalar.muli (BitVec.ofNat 32 (i 0).val) 1024#32) (BitVec.ofNat 32 p.val))
      (IntOp.addi (Scalar.muli (BitVec.ofNat 32 (i 1).val) 1024#32) (BitVec.ofNat 32 q.val)) = 1#1
      ↔ row i p = col i q := by
    rw [IntOp.cmpi_eq, ← BitVec.toNat_inj, word_val _ (i 0).isLt _ p.isLt, word_val _ (i 1).isLt _ q.isLt, Fin.ext_iff]
  have hgram : (∑ k : Fin 256, x0 (ix2 p k) * transpose S256x1024 [1, 0] x1 transposes_S1024x256_p1_0_S256x1024 (ix2 k q))
      = Cert.Spec.gram l (row i p) (col i q) := by
    unfold Cert.Spec.gram
    refine Finset.sum_congr rfl fun k _ => ?_
    rw [transpose_ix2_apply, h0, h1]
  rw [e0, e1, hgram, h2, Ideal.ofBits_def, Ideal.ofBits_def, Ideal.ofBits_def, Ideal.ofBits_zero_f32, ofBits_one_f32]
  unfold Cert.Spec.lossAt Cert.Spec.prob
  by_cases hPQ : row i p = col i q
  · rw [hsel.mpr hPQ, select_one, if_pos hPQ]
  · rw [eq_zero_of_ne_one (fun h => hPQ (hsel.mp h)), select_zero, if_neg hPQ]

/-- The tile's total is the spec's total over the tile. -/
theorem tile_sum (i : grid0.Coords) (l : Cert.Spec.SL.Idx → EReal) (adj : Cert.Spec.SA.Idx → EReal)
    (x0 x1 : Vec Ideal S1024x256 .bf16) (x2 : Vec Ideal S1024x1024 .bf16)
    (h0 : ∀ (p : Fin 1024) (k : Fin 256), x0 (ix2 p k) = l (ix2 (row i p) k))
    (h1 : ∀ (q : Fin 1024) (k : Fin 256), x1 (ix2 q k) = l (ix2 (col i q) k))
    (h2 : ∀ (p q : Fin 1024), x2 (ix2 p q) = adj (ix2 (row i p) (col i q))) :
    ∑ p : Fin 1024, ∑ q : Fin 1024, k0_pay4 (F := Ideal) i x0 x1 x2 (ix2 p q)
      = ∑ p : Fin 1024, ∑ q : Fin 1024, Cert.Spec.lossAt l adj (row i p) (col i q) :=
  Finset.sum_congr rfl fun p _ => Finset.sum_congr rfl fun q _ => pay4_apply i l adj x0 x1 x2 h0 h1 h2 p q

/-- One grid step's accumulator update: every entry gains the spec's total over the tile. -/
theorem step_apply (i : grid0.Coords) (l : Cert.Spec.SL.Idx → EReal) (adj : Cert.Spec.SA.Idx → EReal)
    (x0 x1 : Vec Ideal S1024x256 .bf16) (x2 : Vec Ideal S1024x1024 .bf16)
    (h0 : ∀ (p : Fin 1024) (k : Fin 256), x0 (ix2 p k) = l (ix2 (row i p) k))
    (h1 : ∀ (q : Fin 1024) (k : Fin 256), x1 (ix2 q k) = l (ix2 (col i q) k))
    (h2 : ∀ (p q : Fin 1024), x2 (ix2 p q) = adj (ix2 (row i p) (col i q)))
    (acc : Vec Ideal S8x128 .f32) (a : Fin 8) (b : Fin 128) :
    k0_pay1 (F := Ideal) (k0_pay4 (F := Ideal) i x0 x1 x2) acc (ix2 a b)
      = acc (ix2 a b) + ∑ p : Fin 1024, ∑ q : Fin 1024, Cert.Spec.lossAt l adj (row i p) (col i q) := by
  rw [pay1_apply, tile_sum i l adj x0 x1 x2 h0 h1 h2]

end Cert.KernelPay
-- ==== Proof.KI.Ideal.lean ====
/-
  The kernel's result at the ideal instance. The scratch after point `8 r + j` holds, in every lane, the sum of the
  totals of the tiles `(r, 0) … (r, j)` — each addition `0 + x` or `(a + b) + c` of extended reals, where addition is
  commutative and associative with no finiteness needed — so row `r` of the result array holds the total of row `r` of
  tiles; the last host line sums the eight rows and divides by the number of entries. A tile's total is the sum of
  the per-entry losses of the 1024 × 1024 entries it covers, the input blocks being the embedding's rows
  `1024 r + p` and `1024 j + q` and the adjacency's entries at those rows and columns. Re-tiling the double sum over
  8192 × 8192 entries into 8 × 8 tiles gives the mean loss.
-/
import proofs.«157359_j10368051053022_1_alg».proof.Proof.KI.Value
import proofs.«157359_j10368051053022_1_alg».proof.Proof.KernelHost
import proofs.«157359_j10368051053022_1_alg».proof.Proof.KernelPay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable (m : (ℓ : Loc nD τ sig) → Buf (Elt Ideal) ℓ) (ρ : Dev nD → PrngReg)

/-- The embedding and the adjacency matrix the two programs share, as functions of the launch memory. -/
abbrev lOf (c : Dev nD) : Cert.Spec.SL.Idx → EReal := m ((c.tc : Thread nD τ).loc main_arg0)
abbrev adjOf (c : Dev nD) : Cert.Spec.SA.Idx → EReal := Cert.RefSide.adjR (m ((c.tc : Thread nD τ).loc main_arg1))

/-- The narrowed embedding is the embedding; the scattered adjacency is the reference's. -/
theorem V39_eq (c : Dev nD) : (V m c main_v39 : Cert.Spec.SL.Idx → EReal) = lOf m c := Cert.KernelHost.l_eq (Vl m c)
theorem V38_eq (c : Dev nD) : (V m c main_v38 : Cert.Spec.SA.Idx → EReal) = adjOf m c := Cert.KernelHost.adj_eq (Vl m c)

theorem pt_lt (r : Fin 8) (j : Fin 8) : r.val * 8 + j.val < cfg0.N := lt_of_lt_of_eq (by omega : r.val * 8 + j.val < 64) N_0.symm

/-- The total of the tile at point `n`. -/
def S (c : Dev nD) (n : ℕ) : EReal :=
  if h : n < cfg0.N then ∑ p : Fin 1024, ∑ q : Fin 1024, tile m c ⟨n, h⟩ (ix2 p q) else 0

/-- The tile at row `r`, column `j` totals the losses of the entries it covers. -/
theorem S_eq (c : Dev nD) (r j : Fin 8) :
    S m c (r.val * 8 + j.val) = ∑ p : Fin 1024, ∑ q : Fin 1024,
      Cert.Spec.lossAt (lOf m c) (adjOf m c) ⟨r.val * 1024 + p.val, by omega⟩ ⟨j.val * 1024 + q.val, by omega⟩ := by
  unfold S
  rw [dif_pos (pt_lt r j)]
  obtain ⟨-, -, -, -, -, -, -, -, -, g0, g1⟩ := idx_facts ⟨r.val * 8 + j.val, pt_lt r j⟩
  have g0' : (grid0.coords ⟨r.val * 8 + j.val, pt_lt r j⟩ 0).val = r.val := by rw [g0]; show (r.val * 8 + j.val) / 8 = r.val; omega
  have g1' : (grid0.coords ⟨r.val * 8 + j.val, pt_lt r j⟩ 1).val = j.val := by rw [g1]; show (r.val * 8 + j.val) % 8 = j.val; omega
  unfold tile
  rw [Cert.KernelPay.tile_sum (grid0.coords ⟨r.val * 8 + j.val, pt_lt r j⟩) (lOf m c) (adjOf m c) _ _ _
    (fun p k => by rw [iblk0_apply, V39_eq]) (fun q k => by rw [iblk1_apply, V39_eq]) (fun p q => by rw [iblk2_apply, V38_eq])]
  have hr : ∀ p : Fin 1024, Cert.KernelPay.row (grid0.coords ⟨r.val * 8 + j.val, pt_lt r j⟩) p = ⟨r.val * 1024 + p.val, by omega⟩ := fun p =>
    Fin.ext (by show (grid0.coords ⟨r.val * 8 + j.val, pt_lt r j⟩ 0).val * 1024 + p.val = r.val * 1024 + p.val; rw [g0'])
  have hc : ∀ q : Fin 1024, Cert.KernelPay.col (grid0.coords ⟨r.val * 8 + j.val, pt_lt r j⟩) q = ⟨j.val * 1024 + q.val, by omega⟩ := fun q =>
    Fin.ext (by show (grid0.coords ⟨r.val * 8 + j.val, pt_lt r j⟩ 1).val * 1024 + q.val = j.val * 1024 + q.val; rw [g1'])
  simp only [hr, hc]

/-- The sum a row has accumulated after point `n`. -/
def rowSum (c : Dev nD) : ℕ → EReal
  | 0 => S m c 0
  | n + 1 => if (n + 1) % 8 = 0 then S m c (n + 1) else rowSum c n + S m c (n + 1)

theorem S_at (c : Dev nD) (t : Fin cfg0.N) : S m c t.val = ∑ p : Fin 1024, ∑ q : Fin 1024, tile m c t (ix2 p q) := by
  unfold S; rw [dif_pos t.isLt]

/-- Every lane of the scratch holds the row's accumulated sum. -/
theorem acc_apply (c : Dev nD) : ∀ (n : ℕ) (h : n < cfg0.N) (a : Fin 8) (b : Fin 128), accAt m c n h (ix2 a b) = rowSum m c n
  | 0, h, a, b => by
    rw [accAt_first m c ⟨0, h⟩ rfl, Cert.KernelPay.pay1_apply, Cert.KernelPay.pay3_apply, zero_add, ← S_at m c ⟨0, h⟩]; rfl
  | n + 1, h, a, b => by
    by_cases h0 : (n + 1) % 8 = 0
    · rw [accAt_first m c ⟨n + 1, h⟩ h0, Cert.KernelPay.pay1_apply, Cert.KernelPay.pay3_apply, zero_add, ← S_at m c ⟨n + 1, h⟩]
      exact (if_pos h0).symm
    · rw [accAt_next m c ⟨n + 1, h⟩ h0, Cert.KernelPay.pay1_apply, ← S_at m c ⟨n + 1, h⟩]
      show accAt m c n _ (ix2 a b) + S m c (n + 1) = rowSum m c (n + 1)
      rw [acc_apply c n _ a b]
      exact (if_neg h0).symm

theorem rowSum_start (c : Dev nD) (n : ℕ) (h : n % 8 = 0) : rowSum m c n = S m c n := by
  cases n with
  | zero => rfl
  | succ n => exact if_pos h
theorem rowSum_step (c : Dev nD) (n : ℕ) (h : ¬(n + 1) % 8 = 0) : rowSum m c (n + 1) = rowSum m c n + S m c (n + 1) := if_neg h

/-- After a row's last column the sum is the total of the row's eight tiles. -/
theorem rowSum_end (c : Dev nD) (r : Fin 8) : rowSum m c (r.val * 8 + 7) = ∑ j : Fin 8, S m c (r.val * 8 + j.val) := by
  rw [Fin.sum_univ_eight]
  rw [rowSum_step m c (r.val * 8 + 6) (by omega), rowSum_step m c (r.val * 8 + 5) (by omega), rowSum_step m c (r.val * 8 + 4) (by omega),
    rowSum_step m c (r.val * 8 + 3) (by omega), rowSum_step m c (r.val * 8 + 2) (by omega), rowSum_step m c (r.val * 8 + 1) (by omega),
    rowSum_step m c (r.val * 8 + 0) (by omega), rowSum_start m c (r.val * 8 + 0) (by omega)]
  rfl

/-- The result array after the region, as a function on its indices. -/
def outArr (c : Dev nD) : S8x8x128.Idx → EReal := Vr m c (Proc.devRef .tc main_v40)

/-- It is the array of running sums after each row's last column. -/
theorem outArr_eq (c : Dev nD) : outArr m c = G3 m c := (Vr_v40 m c).trans (final3 m c)

theorem G3_row (c : Dev nD) (r : Fin 8) : (G3 m c : S8x8x128.Idx → EReal) (ix3 r (0 : Fin 8) (0 : Fin 128)) = (accAt m c (r.val * 8 + 7) (rowEnd_lt _ r.isLt) : S8x128.Idx → EReal) (ix2 (0 : Fin 8) (0 : Fin 128)) := rfl

/-- Row `r` of the result array holds the total of the row's eight tiles. -/
theorem out_row (c : Dev nD) (r : Fin 8) :
    outArr m c (ix3 r (0 : Fin 8) (0 : Fin 128))
      = ∑ j : Fin 8, ∑ p : Fin 1024, ∑ q : Fin 1024,
          Cert.Spec.lossAt (lOf m c) (adjOf m c) ⟨r.val * 1024 + p.val, by omega⟩ ⟨j.val * 1024 + q.val, by omega⟩ := by
  rw [outArr_eq, G3_row, acc_apply m c _ _ 0 0, rowSum_end m c r]
  exact Finset.sum_congr rfl fun j _ => S_eq m c r j

set_option maxHeartbeats 2000000 in
/-- The result buffer after the last host line is the mean loss. -/
theorem kernel_value (c : Dev nD) :
    (Ve m c main_v44 : S_.Idx → EReal) = fun _ => Cert.Spec.mean (lOf m c) (adjOf m c) := by
  refine (Cert.KernelHost.tail_eq (Vr m c)).trans ?_
  show (fun _ => Ideal.div (∑ i : Fin 8, outArr m c (ix3 i (0 : Fin 8) (0 : Fin 128))) (Ideal.ofBits .f32 0x4C800000#32)) = _
  funext _
  unfold Cert.Spec.mean
  have hsum : (∑ i : Fin 8, outArr m c (ix3 i (0 : Fin 8) (0 : Fin 128)))
      = ∑ r : Fin 8, ∑ j : Fin 8, ∑ p : Fin 1024, ∑ q : Fin 1024,
          Cert.Spec.lossAt (lOf m c) (adjOf m c) ⟨r.val * 1024 + p.val, by omega⟩ ⟨j.val * 1024 + q.val, by omega⟩ :=
    Finset.sum_congr rfl fun r _ => out_row m c r
  rw [Cert.Spec.total_tiled, hsum]

/-- The idealized kernel's run: the result is the mean loss of the shared embedding and adjacency, the arguments
    end unchanged. -/
theorem kernel_run : θ_run defs (onTc (τ := τ) (main (F := Ideal))) ⟨m, fun _ => 0, ρ⟩ (fun r => ∀ c : Dev nD,
      r.2.mem ((c.tc : Thread nD τ).loc main_v44) = (fun _ => Cert.Spec.mean (lOf m c) (adjOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (kernel_value m c), (h c).2⟩) (run_main m ρ)

end Cert.KernelIdeal.Hand

end
-- ==== Proof.K.Points.lean ====
/-
  The loss kernel's grid, point by point: an 8 × 8 grid walked row-major, point `t` at row `t / 8` and column
  `t % 8`. Each row of the grid reduces its eight tiles into one running sum kept in a scratch buffer: the sum is
  reset at the row's first column, every column adds its tile's total, and the row's last column copies the sum
  into the output block. This module fixes the vocabulary the rest of the frame proof is stated over — the
  buffers' contents when the region is entered (after the host operations that build the adjacency matrix and
  narrow the embedding), each window's block at a point, the two branch conditions in closed form, where the
  output window is idle, and that an input window's staging buffer holds its block at every point.
-/
import proofs.«157359_j10368051053022_1_alg».proof.Proof.Gen.Kernel.Launch
import proofs.«157359_j10368051053022_1_alg».proof.Proof.Gen.Kernel.Skeleton
import proofs.«157359_j10368051053022_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window
    that is not fetched at a point has not moved since the point before, and the body only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- "This is the row's first column": the running sum is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the row's last column": the running sum is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last column nothing is stored into the output block, -/
theorem idleAt0_3 : ∀ t : Fin cfg0.N, ¬cond0_1 (grid0.coords t) → cfg0.idle 3 (grid0.coords t) = true := by decide +kernel
/-- and it is not written back there; -/
theorem noFlush0_3 : ∀ t : Fin cfg0.N, ¬cond0_1 (grid0.coords t) → (cfg0.win 3).flush t = false := by decide +kernel
/-- at the last column it is stored. -/
theorem liveAt0_3 : ∀ t : Fin cfg0.N, cond0_1 (grid0.coords t) → cfg0.idle 3 (grid0.coords t) = false := by decide +kernel

/-! ## The staging memrefs at a point, and the scratch -/

abbrev VO0_3 : View sig .tc .vmem S1x8x128 .f32 := (Memref.whole cc0_stg3_0 : Memref sig .tc .vmem S1x8x128 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
/-- The scratch buffer that carries the row's running sum. -/
abbrev scM0_0 : Memref sig .tc .vmem S8x128 .f32 := Memref.whole cc0_scratch0
abbrev VS0_0 : View sig .tc .vmem S8x128 .f32 := scM0_0.view

/-- The scoped buffers that are no staging buffer are the scratch alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.Runs.lean ====
/-
  The loss kernel's body run once per control case. A grid point is in one of three cases: the row's first
  column (the running sum is reset, then the tile's total added), an interior column (the total added to what the
  column before left), and the row's last column (the total added, then the sum copied into the output block). In
  each case the body, started on whole staging buffers holding the three input blocks, terminates without fault,
  leaves the inputs as they were, and leaves in the scratch buffer (and, in the last case, in the output buffer)
  the pieces its stores wrote; the pieces are found by running the body symbolically.
-/
import proofs.«157359_j10368051053022_1_alg».proof.Proof.K.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- First column: the scratch may hold anything; the output buffer is handed back untouched. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) :
    { LS0 : List (View.Piece (Elt F) S8x128 .f32) //
      ∀ (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, fun xi3 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Interior column: the scratch holds what the column before left; the output buffer is handed back untouched. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) :
    { LS0 : List (View.Piece (Elt F) S8x128 .f32) //
      ∀ (xi3 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, fun xi3 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Last column: the scratch holds what the column before left; the output buffer may hold anything and ends
    with the pieces the copy wrote. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) :
    Σ' (L3 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Frame.lean ====
/-
  What the scratch buffer and the output block hold after each grid point, the proof data of the pipeline, and the
  body obligation. The scratch after point `n` is defined by recursion on `n`: at a row's first column it is what
  the first-column run leaves (the reset sum plus the tile's total), elsewhere what the interior- or last-column
  run leaves when started on the scratch of point `n - 1`. The output block is stored only at a row's last column
  (and written back to the result array there); at the other points its staging buffer is handed back as found.
  The region invariant is the scratch at the previous point's contents (at anything before the first point).
-/
import proofs.«157359_j10368051053022_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) (y : S8x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S8x128.size (by sl_kernel_rfl) y

/-- The scratch after a first-column point. -/
def sout0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S1024x256 .bf16) (x1 : Vec F S1024x256 .bf16) (x2 : Vec F S1024x1024 .bf16) : Vec F S8x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) (y : S8x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S8x128.size (by sl_kernel_rfl) y

/-- The scratch after an interior-column point. -/
def sout0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S1024x256 .bf16) (x1 : Vec F S1024x256 .bf16) (x2 : Vec F S1024x1024 .bf16) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) (y : S1x8x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x8x128.size (by sl_kernel_rfl) y

/-- The output block after a last-column point. -/
def out0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) : Vec F S1x8x128 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) (y : S8x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8x128.size (by sl_kernel_rfl) y

/-- The scratch after a last-column point. -/
def sout0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S1024x256 .bf16) (x1 : Vec F S1024x256 .bf16) (x2 : Vec F S1024x1024 .bf16) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The running sum, point by point -/

theorem not_c1_of_c0 (t : Fin cfg0.N) (h0 : t.val % 8 = 0) : ¬cond0_1 (grid0.coords t) := fun h => by
  have := (hcond0_1 t).mp h; omega
theorem not_c0_of (t : Fin cfg0.N) (h0 : ¬t.val % 8 = 0) : ¬cond0_0 (grid0.coords t) := fun h => h0 ((hcond0_0 t).mp h)
theorem not_c1_of (t : Fin cfg0.N) (h1 : ¬t.val % 8 = 7) : ¬cond0_1 (grid0.coords t) := fun h => h1 ((hcond0_1 t).mp h)

/-- The scratch buffer after the body at position `n`. -/
def accAt (c : Dev nD) : (n : ℕ) → n < cfg0.N → Vec F S8x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_c1_of_c0 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (not_c1_of_c0 ⟨n + 1, hn⟩ h0) (iblk m c 0 ⟨n + 1, hn⟩) (iblk m c 1 ⟨n + 1, hn⟩) (iblk m c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of ⟨n + 1, hn⟩ h0) ((hcond0_1 ⟨n + 1, hn⟩).mpr h1) (iblk m c 0 ⟨n + 1, hn⟩) (iblk m c 1 ⟨n + 1, hn⟩) (iblk m c 2 ⟨n + 1, hn⟩) (accAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of ⟨n + 1, hn⟩ h0) (not_c1_of ⟨n + 1, hn⟩ h1) (iblk m c 0 ⟨n + 1, hn⟩) (iblk m c 1 ⟨n + 1, hn⟩) (iblk m c 2 ⟨n + 1, hn⟩) (accAt c n (Nat.lt_of_succ_lt hn))

theorem accAt_A (c : Dev nD) (t : Fin cfg0.N) (h0 : t.val % 8 = 0) :
    accAt m c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (not_c1_of_c0 t h0) (iblk m c 0 t) (iblk m c 1 t) (iblk m c 2 t) := by
  obtain ⟨n, hn⟩ := t
  cases n with
  | zero => exact rfl
  | succ n => exact (dif_pos h0).trans rfl

theorem accAt_B (c : Dev nD) (t : Fin cfg0.N) (h0 : ¬t.val % 8 = 0) (h1 : ¬t.val % 8 = 7) :
    accAt m c t.val t.isLt = sout0_B c (grid0.coords t) (ms0_0 t) (hs0_0 t) (ms0_1 t) (hs0_1 t) (ms0_2 t) (hs0_2 t) (ms0_3 t) (hs0_3 t) scM0_0 (Memref.isWhole_whole _) (not_c0_of t h0) (not_c1_of t h1) (iblk m c 0 t) (iblk m c 1 t) (iblk m c 2 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg0.N) (h0 : ¬t.val % 8 = 0) (h1 : t.val % 8 = 7) :
    accAt m c t.val t.isLt = sout0_C c (grid0.coords t) (ms0_0 t) (hs0_0 t) (ms0_1 t) (hs0_1 t) (ms0_2 t) (hs0_2 t) (ms0_3 t) (hs0_3 t) scM0_0 (Memref.isWhole_whole _) (not_c0_of t h0) ((hcond0_1 t).mpr h1) (iblk m c 0 t) (iblk m c 1 t) (iblk m c 2 t) (accAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Contents nothing reads: the output block's staging buffer away from a row's last column. -/
def unread3 : Vec F S1x8x128 .f32 := VO0_3.read (Elt F) VO0_3.junk

/-- The output block's staging buffer after the body at point `t`: stored at a row's last column. -/
def outAt (c : Dev nD) (t : Fin cfg0.N) : Vec F S1x8x128 .f32 :=
  if h1 : t.val % 8 = 7 then
    out0_C c (grid0.coords t) (ms0_0 t) (hs0_0 t) (ms0_1 t) (hs0_1 t) (ms0_2 t) (hs0_2 t) (ms0_3 t) (hs0_3 t) scM0_0 (Memref.isWhole_whole _) (not_c0_of t (by omega)) ((hcond0_1 t).mpr h1) (iblk m c 0 t) (iblk m c 1 t) (iblk m c 2 t) (accAt m c (t.val - 1) (Nat.lt_of_le_of_lt (Nat.sub_le _ _) t.isLt))
  else unread3

/-- The invariant before position `n`: the scratch at anything before the first point, then at what the point
    before left. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl
theorem PhiS_succ (c : Dev nD) (n : ℕ) (hn : n < cfg0.N) :
    PhiS m c (n + 1) hn = owns (c : Thread nD τ) scM0_0 fullShare (accAt m c n hn) := rfl
theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The proof data -/

/-- The two windows on the embedding array hold half of it each; the adjacency window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 8 = 0
  · have hc1 : ¬cond0_1 (grid0.coords t) := not_c1_of_c0 t h0
    rw [Dat.leavesExact_idle (dats m 0 c) 3 t (idleAt0_3 t hc1) (noFlush0_3 t hc1)]
    rw [accAt_A m c t h0]
    unfold sout0_A; (try dsimp only)
    have hphi : (dats m 0 c).Φ t.castSucc ⊢ (iprop(∃ d, owns (c : Thread nD τ) scM0_0 fullShare d) : sProp 𝕄) := by
      rw [PhiS_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩⟩
    ihave HS0 := hphi $$ HS
    iapply ((kernelRun0_A c (grid0.coords t) _ _ _ _ _ _ _ _ _ _ ((hcond0_0 t).mpr h0) hc1 (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0]
    · unfold owns; iexists _; isplitr
      swap; · iexact HS0
      ipureintro; exact View.read_writes_of_cover _ _ _ _ _ (scover0_A c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [accAt_C m c t h0 h1]
      unfold outAt; rw [dif_pos h1]
      unfold out0_C sout0_C; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (not_c0_of t h0) hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := not_c1_of t h1
      rw [Dat.leavesExact_idle (dats m 0 c) 3 t (idleAt0_3 t hc1) (noFlush0_3 t hc1)]
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (not_c0_of t h0) hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _)
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the region is entered with — the scratch at anything — is the invariant before the first point. -/
theorem hin (c : Dev nD) : (iprop(∃ d, owns (c : Thread nD τ) scM0_0 fullShare d) : sProp 𝕄) ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ (iprop(∃ d, owns (c : Thread nD τ) scM0_0 fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega)]
  iintro H; iexists _; iexact H

end Cert.Kernel.Hand

end
-- ==== Proof.K.Launch.lean ====
/-
  The whole program's run. The program is a line of host operations (the adjacency matrix scattered from the edge
  list, the embedding narrowed), the kernel region, and a short line of host operations that sums the eight row
  totals and divides by the number of entries. Between these three items each core holds all its unscoped
  buffers whole: at the launch contents, then after the first line, then with the region's result array at what
  the pipeline wrote back, then after the last line. The embedding array is read by two windows of the region;
  on entry its buffer is split into two half shares, one per window, and on exit the halves are joined again —
  both windows only read it, so both halves still hold the entry contents. Every weakly fair execution
  terminates, and the final memory holds the two arguments as launched and the result at the last valuation.
-/
import proofs.«157359_j10368051053022_1_alg».proof.Proof.K.Frame
import Idealize.ShloMosaic.Lib.Pipeline.Frame
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev Vl (c : Dev nD) : Valuation τ sig (Elt F) := fun b => m (c, b)
/-- After the region: the result array at what the pipeline wrote back, everything else as the region found it. -/
abbrev Vr (c : Dev nD) : Valuation τ sig (Elt F) := Function.update (V0 m c) main_v40 ((dats m 0 c).arrAt 3 cfg0.N)
/-- After the last line of host operations. -/
abbrev Ve (c : Dev nD) : Valuation τ sig (Elt F) := StableHlo.after hostOps1 (Vr m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The references the first line writes. -/
abbrev hostOps0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_cst_3, main_v18, main_v19, main_v20, main_v21, main_v22, main_v23, main_c_4, main_v24, main_v25, main_c_5, main_v26, main_v27, main_v28, main_c_6, main_v29, main_v30, main_c_7, main_v31, main_v32, main_v33, main_v34, main_v35, main_v36, main_cst_8, main_v37, main_v38, main_v39]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- The references the last line writes. -/
abbrev hostOps1_W : List (Ref sig .tc) := [main_v41, main_v42, main_cst_9, main_v43, main_cst_10, main_v44]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))

theorem V0_of (c : Dev nD) (r : Ref sig .tc) (h : r ∉ hostOps0_W) : V0 m c r = Vl m c r :=
  StableHlo.after_of_writes_sub hostOps0 _ hostOps0_writes h
theorem Vr_of (c : Dev nD) (r : Ref sig .tc) (h : r ≠ main_v40) : Vr m c r = V0 m c r := by
  simp only [Vr, Function.update_of_ne (StableHlo.devRef_ne_of_ne h : (Proc.devRef .tc r : DevRef τ sig) ≠ Proc.devRef .tc main_v40)]
theorem Vr_v40 (c : Dev nD) : Vr m c main_v40 = (dats m 0 c).arrAt 3 cfg0.N := by
  simp only [Vr, Function.update_self]
theorem Ve_of (c : Dev nD) (r : Ref sig .tc) (h : r ∉ hostOps1_W) : Ve m c r = Vr m c r :=
  StableHlo.after_of_writes_sub hostOps1 _ hostOps1_writes h

/-- No item writes an argument. -/
theorem Ve_main_arg0 (c : Dev nD) : Ve m c main_arg0 = m ((c : Thread nD τ).loc main_arg0) :=
  (Ve_of m c main_arg0 (by decide)).trans <| (Vr_of m c main_arg0 (by decide)).trans <| (V0_of m c main_arg0 (by decide)).trans rfl
theorem Ve_main_arg1 (c : Dev nD) : Ve m c main_arg1 = m ((c : Thread nD τ).loc main_arg1) :=
  (Ve_of m c main_arg1 (by decide)).trans <| (Vr_of m c main_arg1 (by decide)).trans <| (V0_of m c main_arg1 (by decide)).trans rfl

/-! ## The region's arrays, one by one -/

/-- The three distinct buffers behind the four windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc (Pipeline.arrRef spec0 0)) ↦{fullShare} W (Pipeline.arrRef spec0 0)) ∗ (((c.tc : Thread nD τ).loc (Pipeline.arrRef spec0 2)) ↦{fullShare} W (Pipeline.arrRef spec0 2))
          ∗ (((c.tc : Thread nD τ).loc (Pipeline.arrRef spec0 3)) ↦{fullShare} W (Pipeline.arrRef spec0 3))) := by
  unfold Pipeline.arrBufs
  exact bigSep_eq_bigSepL_of_eq [Pipeline.arrRef spec0 0, Pipeline.arrRef spec0 2, Pipeline.arrRef spec0 3] (by decide) (by decide) _

/-- The pipeline's arrays: the embedding array in two halves, the adjacency and the result whole. -/
theorem arrays_eq4 (c : Dev nD) (G : (w : Fin cfg0.W) → Buf (Elt F) ((cfg0.win w).arr.view.loc (c.tc : Thread nD τ))) :
    ((dats m 0 c).arrays G : sProp 𝕄)
      = iprop((((c.tc : Thread nD τ).loc (Pipeline.arrRef spec0 0)) ↦{fullShare.left} G 0) ∗ (((c.tc : Thread nD τ).loc (Pipeline.arrRef spec0 0)) ↦{fullShare.right} G 1)
          ∗ (((c.tc : Thread nD τ).loc (Pipeline.arrRef spec0 2)) ↦{fullShare} G 2) ∗ (((c.tc : Thread nD τ).loc (Pipeline.arrRef spec0 3)) ↦{fullShare} G 3)) := by
  unfold Dat.arrays
  rw [bigSep_W0, (arr_whole0 0).set_eq_univ, (arr_whole0 2).set_eq_univ, (arr_whole0 3).set_eq_univ]
  rfl

/-- The arrays' contents when the region is entered are what the first line left; both windows on the embedding
    array find the same contents. -/
theorem arrAt0_0 (c : Dev nD) : (dats m 0 c).arrAt 0 0 = V m c (Pipeline.arrRef spec0 0) := A_eq m c 0
theorem arrAt0_1 (c : Dev nD) : (dats m 0 c).arrAt 1 0 = V m c (Pipeline.arrRef spec0 0) := A_eq m c 1
theorem arrAt0_2 (c : Dev nD) : (dats m 0 c).arrAt 2 0 = V m c (Pipeline.arrRef spec0 2) := A_eq m c 2
theorem arrAt0_3 (c : Dev nD) : (dats m 0 c).arrAt 3 0 = V m c (Pipeline.arrRef spec0 3) := A_eq m c 3
/-- The input arrays are never written. -/
theorem arrAtN_0 (c : Dev nD) : (dats m 0 c).arrAt 0 cfg0.N = V m c (Pipeline.arrRef spec0 0) := ((dats m 0 c).arrAt_in 0 rfl _).trans (A_eq m c 0)
theorem arrAtN_1 (c : Dev nD) : (dats m 0 c).arrAt 1 cfg0.N = V m c (Pipeline.arrRef spec0 0) := ((dats m 0 c).arrAt_in 1 rfl _).trans (A_eq m c 1)
theorem arrAtN_2 (c : Dev nD) : (dats m 0 c).arrAt 2 cfg0.N = V m c (Pipeline.arrRef spec0 2) := ((dats m 0 c).arrAt_in 2 rfl _).trans (A_eq m c 2)
theorem Vr_arr0 (c : Dev nD) : Vr m c (Pipeline.arrRef spec0 0) = V m c (Pipeline.arrRef spec0 0) := Vr_of m c _ (by decide)
theorem Vr_arr2 (c : Dev nD) : Vr m c (Pipeline.arrRef spec0 2) = V m c (Pipeline.arrRef spec0 2) := Vr_of m c _ (by decide)
theorem Vr_arr3 (c : Dev nD) : Vr m c (Pipeline.arrRef spec0 3) = (dats m 0 c).arrAt 3 cfg0.N := Vr_v40 m c

/-- The buffers that bypass the region are the same before and after it. -/
theorem rest_eq (c : Dev nD) :
    (Pipeline.unscopedRest (Ix := Unit) (Name := ℕ) (U := UR sig nD τ) (Lvl := ℕ) spec0 c (fun b => Vr m c b) : sProp 𝕄)
      = Pipeline.unscopedRest spec0 c (V m c) := by
  unfold Pipeline.unscopedRest
  refine bigSep_congr fun b hb => ?_
  dsimp only
  rw [Vr_of m c b (fun h => (Finset.mem_sdiff.mp hb).2 (Finset.mem_image.mpr ⟨3, Finset.mem_univ _, h ▸ rfl⟩))]

/-! ## The items as segments -/

abbrev adm : (p : Fin 1) → (pcfgs (F := F) p).Adm := fun p => (cfgs p).toPCfg_adm
abbrev Lz : GSem nD τ sig → Finset Unit := fun _ => ∅
abbrev lvz : GSem nD τ sig → Unit → ℕ := fun _ _ => 0
/-- What rides beside the buffers: the core owes nothing. -/
abbrev Rz (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) Rz

def seg2 : HostSeg (Ix := Unit) (Name := ℕ) (U := UR sig nD τ) (Lvl := ℕ) (pcfgs (F := F)) defs₀ Variants.none Lz lvz :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Vr m) Rz

set_option maxHeartbeats 4000000 in
set_option backward.isDefEq.respectTransparency.types false in
/-- The region: entered from every unscoped buffer held at the contents after the first line, left with the
    result array at what the pipeline wrote back. -/
def reg1 : RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (V0 m c) ∗ Rz c)
  post c := iprop(StableHlo.held (c : Thread nD τ) (Pipeline.ucRefs τ sig) (Vr m c) ∗ Rz c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c (V0 m c)).symm,
      Pipeline.unscopedBufs_split₀ cfgs 0 winFacts₀0.arr_unscoped c (V m c), arrBufs_eq, arrays_eq4, arrAt0_0, arrAt0_1, arrAt0_2, arrAt0_3]
    iintro ⟨⟨⟨⟨H39, H38, H40⟩, Hrest⟩, HO⟩, -, -⟩
    ihave H39' := (pointsTo_share (PosShare.mem_left_op_right fullShare)).1 $$ H39
    icases H39' with ⟨H39l, H39r⟩
    imodintro
    isplitl [H39l H39r H38 H40]
    · isplitl [H39l]; · iexact H39l
      isplitl [H39r]; · iexact H39r
      isplitl [H38]; · iexact H38
      iexact H40
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (hin m c)
    rw [← scopedRest0_owns]; iexact Hr
  hout c := by
    rw [Pipeline.ownSems0_none]
    iintro H
    ihave H' := (hout m c) $$ H
    isplitr; · iempintro
    isplitr; · iempintro
    rw [scopedRest0_owns]; iexact H'
  hexit c := by
    rw [show StableHlo.held (c : Thread nD τ) (Pipeline.ucRefs τ sig) (Vr m c) = unscopedBufs c (fun b => Vr m c b) from (Pipeline.unscopedBufs_held c (Vr m c)).symm,
      Pipeline.unscopedBufs_split₀ cfgs 0 winFacts₀0.arr_unscoped c (fun b => Vr m c b), arrBufs_eq, arrays_eq4, rest_eq,
      Vr_arr0, Vr_arr2, Vr_arr3, arrAtN_0, arrAtN_1, arrAtN_2]
    iintro ⟨⟨H39l, H39r, H38, H40⟩, HO, -, Hrest⟩
    imodintro
    isplitr [HO]
    · isplitr [Hrest]
      · isplitl [H39l H39r]
        · iapply (pointsTo_share (PosShare.mem_left_op_right fullShare)).2
          isplitl [H39l]; · iexact H39l
          iexact H39r
        isplitl [H38]; · iexact H38
        iexact H40
      iexact Hrest
    · unfold Pipeline.Dat.owesAt Pipeline.owesWithin
      icases HO with ⟨%W, -, HO⟩; iexists W; iexact HO

abbrev segs : List (Seg (pcfgs (F := F)) adm (dats m) () defs₀ Variants.none Lz lvz) :=
  [.host (seg0 m), .region (reg1 m), .host (seg2 m)]

/-- What the run establishes of the final memory: the result at the last valuation, the arguments as launched. -/
def QC : PUnit × MemSt nD τ sig (Elt F) → Prop := fun r =>
  ∀ c : Dev nD, r.2.mem ((c.tc : Thread nD τ).loc main_v44) = Ve m c main_v44
    ∧ r.2.mem ((c.tc : Thread nD τ).loc main_arg0) = m ((c.tc : Thread nD τ).loc main_arg0)
    ∧ r.2.mem ((c.tc : Thread nD τ).loc main_arg1) = m ((c.tc : Thread nD τ).loc main_arg1)

set_option maxHeartbeats 4000000 in
set_option backward.isDefEq.respectTransparency.types false in
/-- From any memory with zero counters every weakly fair execution of the program terminates without fault, in
    a memory with the result at the last valuation and both arguments unchanged. -/
theorem run_main : θ_run defs (onTc (τ := τ) (main (F := F))) ⟨m, fun _ => 0, ρ⟩ (QC m) := by
  refine Pipeline.θ_run_regions_kit (pcfgs (F := F)) adm (dats m) () cellOf_inj emb₁ defs₀ Variants.none Lz lvz m ρ main (segs m)
    (fun c Q => by
      rewrite [main_chain c, Seg.run_eq_chain,
        show (segs m).map Seg.prog = [
          StableHlo.seq hostOps0,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rz c))
    (Tₙ := fun c => StableHlo.held (c : Thread nD τ) (Pipeline.ucRefs τ sig) (Ve m c))
    (hch := ⟨fun _ => .rfl, fun _ => .rfl, fun _ => .rfl, fun _ => .rfl⟩)
    (hinit := ?_) (QY := fun c s => s.mem ((c.tc : Thread nD τ).loc main_v44) = Ve m c main_v44
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · refine Pipeline.initEach Lz lvz fun c => ?_
    rw [show unscopedBufs c (fun b => m ((c : Thread nD τ).loc b)) = StableHlo.held (c : Thread nD τ) (Pipeline.ucRefs τ sig) (Vl m c) from Pipeline.unscopedBufs_held c (Vl m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Ve m c) s') $$ [Hh HSI]
    · isplitl [Hh] <;> iassumption
    icases Hr with ⟨%h, HSI⟩
    imodintro
    isplitr
    · ipureintro
      exact ⟨h (Proc.devRef .tc main_v44) (Finset.mem_filter.mpr ⟨StableHlo.devRef_mem_tcRefs main_v44, by decide⟩),
        (h (Proc.devRef .tc main_arg0) (Finset.mem_filter.mpr ⟨StableHlo.devRef_mem_tcRefs main_arg0, by decide⟩)).trans (Ve_main_arg0 m c),
        (h (Proc.devRef .tc main_arg1) (Finset.mem_filter.mpr ⟨StableHlo.devRef_mem_tcRefs main_arg1, by decide⟩)).trans (Ve_main_arg1 m c)⟩
    · iexact HSI

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.lean ====
/-
  The binary cross-entropy between a graph's adjacency matrix and sigmoid(L·Lᵀ) with the diagonal zeroed, averaged
  over all 8192 × 8192 entries: a tiled kernel against a whole-matrix reference.

  The kernel walks an 8 × 8 grid of 1024 × 1024 tiles. At tile (r, j) it multiplies rows 1024 r … of the embedding
  with rows 1024 j … (both blocks windows on the one narrowed embedding array), applies the logistic function,
  zeroes the entries on the global diagonal, forms the per-entry loss
      0 − (a·max(log p, −100) + (1 − a)·max(log1p(0 − p), −100))
  against the adjacency tile, and adds the tile's total into a running sum kept in scratch: reset at a row's first
  tile, copied to the output at its last. The host then adds the eight row totals and divides by 2²⁶.
  The reference forms the whole 8192 × 8192 matrix, spells the logistic function as 1/(1 + exp(−s)) and the zeroed
  diagonal as a product with 1 − eye, sums every entry at once, and divides by 2²⁶.

  At the ideal instance the two are one function of the arguments. The per-entry losses agree because on the
  extended reals 0·x = 0, 1·x = x, 1 − 1 = 0, 1 − 0 = 1 and 0 − x = −x hold without any finiteness, and the
  logistic function is by definition 1/(1 + exp(−s)); the adjacency matrices agree because both programs scatter the
  same ones into the same zeros, a change of float format being the identity; and the grand total agrees because
  a finite sum of extended reals may be regrouped freely: the sum over 8192 × 8192 entries is the sum over 8 × 8
  tiles of the tiles' totals, and each row's running sum ((0 + t₀) + t₁) + … + t₇ is the sum of its tiles' totals.
  The precondition (finite inputs) is not needed by any of these steps.

  Frames: each kernel program is a line of host operations, the kernel region, a line of host operations, run as
  three segments with every unscoped buffer held between them; the region's body is run once per control case
  (first, interior and last column of a tile row). The reference is a straight line of host operations.
-/
import proofs.«157359_j10368051053022_1_alg».proof.Proof.KI.Ideal
import proofs.«157359_j10368051053022_1_alg».proof.Proof.K.Launch
import proofs.«157359_j10368051053022_1_alg».proof.Proof.RefSide
import proofs.«157359_j10368051053022_1_alg».proof.Proof.Gen.Kernel
import proofs.«157359_j10368051053022_1_alg».proof.Proof.Gen.KernelIdeal
import proofs.«157359_j10368051053022_1_alg».proof.Proof.Gen.ReferenceIdeal
import proofs.«157359_j10368051053022_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel terminates, faults nowhere, and leaves both arguments unchanged. -/
theorem frame_k : Cert.frame_Kernel := fun m ρ _ => Cert.Kernel.Hand.frame (F := Bits) m ρ

/-- The same of the idealized kernel. -/
theorem frame_ki : Cert.frame_KernelIdeal := fun m ρ _ => Cert.KernelIdeal.Hand.frame (F := Ideal) m ρ

/-- Both idealized programs, run from memories that agree on the arguments, end with the mean loss of the shared
    embedding and adjacency matrix. -/
theorem algebraic : Cert.algebraic_KernelIdeal_ReferenceIdeal := by
  intro m ρ m' ρ' _ hagree
  refine ⟨fun c => (fun _ => Cert.Spec.mean (Cert.KernelIdeal.Hand.lOf m c) (Cert.KernelIdeal.Hand.adjOf m c)),
    Cert.KernelIdeal.Hand.kernel_run m ρ, ?_⟩
  refine (θ_run Cert.ReferenceIdeal.defs _ _).mono (fun _ h c => ⟨(h c).1.trans ?_, (h c).2⟩) (Cert.RefSide.ref_run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
